-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S65536x256 : Shape := ⟨2, ![65536, 256]⟩
abbrev S32768x512 : Shape := ⟨2, ![32768, 512]⟩
abbrev S16x128 : Shape := ⟨2, ![16, 128]⟩
abbrev S2048x512 : Shape := ⟨2, ![2048, 512]⟩
abbrev S8x128 : Shape := ⟨2, ![8, 128]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S32768x512, .f32⟩
  | .hbm, ⟨3, _⟩ => ⟨S32768x512, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v153 : BitVec 1 := Scalar.cmpi .eq arg1 c7_i32
  let v154 : BitVec 32 := Scalar.extui v153
  let c0_i32_38 : BitVec 32 := 0#32
  let v155 : BitVec 1 := Scalar.cmpi .ne v154 c0_i32_38
  v155

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536x256_S32768x512 : S65536x256.ShapeCasts S32768x512
  inb_S2048x512_S2048x256_0_0 : ∀ a, (![0, 0] : Fin 2 → Nat) a + S2048x256.size a ≤ S2048x512.size a
  h_S2048x256 : 0 < S2048x256.numel
  shapeCasts_S2048x256_S2048x256 : S2048x256.ShapeCasts S2048x256
  inb_S2048x512_S2048x256_0_256 : ∀ a, (![0, 256] : Fin 2 → Nat) a + S2048x256.size a ≤ S2048x512.size a
  reduces_S2048x256_S2048 : S2048x256.Reduces [1] S2048
  shapeCasts_S2048_S2048x1 : S2048.ShapeCasts S2048x1
  broadcasts_S2048x1_S2048x256 : S2048x1.Broadcasts S2048x256
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S65536x256 : Shape := ⟨2, ![65536, 256]⟩
abbrev S4x2 : Shape := ⟨2, ![4, 2]⟩
abbrev S32768x2x256 : Shape := ⟨3, ![32768, 2, 256]⟩
abbrev S32768x4x256 : Shape := ⟨3, ![32768, 4, 256]⟩
abbrev S_ : Shape := ⟨0, ![]⟩
abbrev S32768x4 : Shape := ⟨2, ![32768, 4]⟩
abbrev S32768x4x1 : Shape := ⟨3, ![32768, 4, 1]⟩
abbrev S32768x4x4 : Shape := ⟨3, ![32768, 4, 4]⟩
abbrev S32768x1x1 : Shape := ⟨3, ![32768, 1, 1]⟩
abbrev S32768 : Shape := ⟨1, ![32768]⟩
abbrev S32768x1 : Shape := ⟨2, ![32768, 1]⟩
abbrev S1x4x2 : Shape := ⟨3, ![1, 4, 2]⟩
abbrev S4x2x1 : Shape := ⟨3, ![4, 2, 1]⟩
abbrev S1 : Shape := ⟨1, ![1]⟩
abbrev S1x1x1 : Shape := ⟨3, ![1, 1, 1]⟩
abbrev S32768x4x2 : Shape := ⟨3, ![32768, 4, 2]⟩
abbrev S32768x4x3 : Shape := ⟨3, ![32768, 4, 3]⟩

abbrev nBuf : Space → Nat
  | .hbm => 81
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S4x2, .i32⟩
  | .hbm, ⟨3, _⟩ => ⟨S32768x2x256, .f32⟩
  | .hbm, ⟨4, _⟩ => ⟨S32768x2x256, .f32⟩
  | .hbm, ⟨5, _⟩ => ⟨S32768x4x256, .f32⟩
  | .hbm, ⟨6, _⟩ => ⟨S32768x4x256, .f32⟩
  | .hbm, ⟨7, _⟩ => ⟨S_, .f32⟩
  | .hbm, ⟨8, _⟩ => ⟨S32768x4, .f32⟩
  | .hbm, ⟨9, _⟩ => ⟨S32768x4x1, .f32⟩
  | .hbm, ⟨10, _⟩ => ⟨S32768x4x1, .f32⟩
  | .hbm, ⟨11, _⟩ => ⟨S_, .f32⟩
  | .hbm, ⟨12, _⟩ => ⟨S32768x4x1, .f32⟩
  | .hbm, ⟨13, _⟩ => ⟨S32768x4x1, .f32⟩
  | .hbm, ⟨14, _⟩ => ⟨S32768x4x256, .f32⟩
  | .hbm, ⟨15, _⟩ => ⟨S32768x4x256, .f32⟩
  | .hbm, ⟨16, _⟩ => ⟨S32768x4x4, .f32⟩
  | .hbm, ⟨17, _⟩ => ⟨S32768x1x1, .f32⟩
  | .hbm, ⟨18, _⟩ => ⟨S32768, .f32⟩
  | .hbm, ⟨19, _⟩ => ⟨S32768x1x1, .f32⟩
  | .hbm, ⟨20, _⟩ => ⟨S32768, .f32⟩
  | .hbm, ⟨21, _⟩ => ⟨S32768x1x1, .f32⟩
  | .hbm, ⟨22, _⟩ => ⟨S32768, .f32⟩
  | .hbm, ⟨23, _⟩ => ⟨S32768x1x1, .f32⟩
  | .hbm, ⟨24, _⟩ => ⟨S32768, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x4, .f32⟩
  | .hbm, ⟨30, _⟩ => ⟨S1x4x2, .i32⟩
  | .hbm, ⟨31, _⟩ => ⟨S_, .i32⟩
  | .hbm, ⟨32, _⟩ => ⟨S1x4x2, .i32⟩
  | .hbm, ⟨33, _⟩ => ⟨S1x4x2, .i1⟩
  | .hbm, ⟨34, _⟩ => ⟨S_, .i32⟩
  | .hbm, ⟨35, _⟩ => ⟨S1x4x2, .i32⟩
  | .hbm, ⟨36, _⟩ => ⟨S1x4x2, .i32⟩
  | .hbm, ⟨37, _⟩ => ⟨S1x4x2, .i32⟩
  | .hbm, ⟨38, _⟩ => ⟨S4x2x1, .i32⟩
  | .hbm, ⟨39, _⟩ => ⟨S1, .i32⟩
  | .hbm, ⟨40, _⟩ => ⟨S_, .i32⟩
  | .hbm, ⟨41, _⟩ => ⟨S4x2x1, .i32⟩
  | .hbm, ⟨42, _⟩ => ⟨S4x2x1, .i1⟩
  | .hbm, ⟨43, _⟩ => ⟨S1x1x1, .i32⟩
  | .hbm, ⟨44, _⟩ => ⟨S4x2x1, .i32⟩
  | .hbm, ⟨45, _⟩ => ⟨S4x2x1, .i1⟩
  | .hbm, ⟨46, _⟩ => ⟨S4x2x1, .i1⟩
  | .hbm, ⟨47, _⟩ => ⟨S_, .i1⟩
  | .hbm, ⟨48, _⟩ => ⟨S4x2, .i1⟩
  | .hbm, ⟨49, _⟩ => ⟨S32768x4x2, .f32⟩
  | .hbm, ⟨50, _⟩ => ⟨S32768x4x2, .i1⟩
  | .hbm, ⟨51, _⟩ => ⟨S_, .f32⟩
  | .hbm, ⟨52, _⟩ => ⟨S32768x4x2, .f32⟩
  | .hbm, ⟨53, _⟩ => ⟨S32768x4x2, .f32⟩
  | .hbm, ⟨54, _⟩ => ⟨S32768x4x1, .f32⟩
  | .hbm, ⟨55, _⟩ => ⟨S32768x4x3, .f32⟩
  | .hbm, ⟨56, _⟩ => ⟨S_, .f32⟩
  | .hbm, ⟨57, _⟩ => ⟨S32768x4x3, .f32⟩
  | .hbm, ⟨58, _⟩ => ⟨S32768x4x3, .f32⟩
  | .hbm, ⟨59, _⟩ => ⟨S_, .f32⟩
  | .hbm, ⟨60, _⟩ => ⟨S32768x4, .f32⟩
  | .hbm, ⟨61, _⟩ => ⟨S_, .f32⟩
  | .hbm, ⟨62, _⟩ => ⟨S32768x4, .f32⟩
  | .hbm, ⟨63, _⟩ => ⟨S32768x4, .f32⟩
  | .hbm, ⟨64, _⟩ => ⟨S32768x4x1, .f32⟩
  | .hbm, ⟨65, _⟩ => ⟨S32768x4x3, .f32⟩
  | .hbm, ⟨66, _⟩ => ⟨S32768x4x3, .f32⟩
  | .hbm, ⟨67, _⟩ => ⟨S32768x4x3, .f32⟩
  | .hbm, ⟨68, _⟩ => ⟨S_, .f32⟩
  | .hbm, ⟨69, _⟩ => ⟨S32768x4, .f32⟩
  | .hbm, ⟨70, _⟩ => ⟨S32768x4x1, .f32⟩
  | .hbm, ⟨71, _⟩ => ⟨S32768x4x1, .f32⟩
  | .hbm, ⟨72, _⟩ => ⟨S32768x4x3, .f32⟩
  | .hbm, ⟨73, _⟩ => ⟨S32768x4x3, .f32⟩
  | .hbm, ⟨74, _⟩ => ⟨S32768x4x1, .f32⟩
  | .hbm, ⟨75, _⟩ => ⟨S32768x4, .f32⟩
  | .hbm, ⟨76, _⟩ => ⟨S32768x4, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_0 : Ref sig .tc := ⟨.hbm, 56, rfl⟩
abbrev main_v26 : Ref sig .tc := ⟨.hbm, 57, rfl⟩
abbrev main_v27 : Ref sig .tc := ⟨.hbm, 58, rfl⟩
abbrev main_call2_cst : Ref sig .tc := ⟨.hbm, 59, rfl⟩
abbrev main_call2_v0 : Ref sig .tc := ⟨.hbm, 60, rfl⟩
abbrev main_call2_cst_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_cst_1 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_1 : Ref sig .tc := ⟨.hbm, 77, rfl⟩
abbrev main_v32 : Ref sig .tc := ⟨.hbm, 78, rfl⟩
abbrev main_cst_2 : Ref sig .tc := ⟨.hbm, 79, rfl⟩
abbrev main_v33 : Ref sig .tc := ⟨.hbm, 80, rfl⟩

abbrev nD : Nat := 1
abbrev τ : Topo := Topo.v7x

variable {F : FTy → Type} [FloatOps F]

class Facts₀ : Prop where
  shapeCasts_S65536x256_S32768x2x256 : S65536x256.ShapeCasts S32768x2x256
  concatenates_S32768x2x256_S32768x2x256_S32768x4x256_d1 : Shape.Concatenates [S32768x2x256, S32768x2x256] S32768x4x256 1
  reducesTo_S32768x4x256_S32768x4_d2 : S32768x4x256.ReducesTo [2] S32768x4
  h_S_ : 0 < S_.numel
  bcast_S32768x4_S32768x4x1_0_1 : S32768x4.BroadcastsInDim S32768x4x1 (![0, 1] : Fin 2 → Fin S32768x4x1.rank)
  bcast_S_S32768x4x1 : S_.BroadcastsInDim S32768x4x1 (![] : Fin 0 → Fin S32768x4x1.rank)
  bcast_S32768x4x1_S32768x4x256_0_1_2 : S32768x4x1.BroadcastsInDim S32768x4x256 (![0, 1, 2] : Fin 3 → Fin S32768x4x256.rank)
  slices_S32768x4x4_S32768x1x1_0_0_2 : S32768x4x4.Slices ![0, 0, 2] S32768x1x1
  shapeCasts_S32768x1x1_S32768 : S32768x1x1.ShapeCasts S32768
  slices_S32768x4x4_S32768x1x1_0_1_3 : S32768x4x4.Slices ![0, 1, 3] S32768x1x1
  slices_S32768x4x4_S32768x1x1_0_2_0 : S32768x4x4.Slices ![0, 2, 0] S32768x1x1
  slices_S32768x4x4_S32768x1x1_0_3_1 : S32768x4x4.Slices ![0, 3, 1] S32768x1x1
  bcast_S32768_S32768x1_0 : S32768.BroadcastsInDim S32768x1 (![0] : Fin 1 → Fin S32768x1.rank)
  concatenates_S32768x1_S32768x1_S32768x1_S32768x1_S32768x4_d1 : Shape.Concatenates [S32768x1, S32768x1, S32768x1, S32768x1] S32768x4 1
  bcast_S4x2_S1x4x2_1_2 : S4x2.BroadcastsInDim S1x4x2 (![1, 2] : Fin 2 → Fin S1x4x2.rank)
  bcast_S_S1x4x2 : S_.BroadcastsInDim S1x4x2 (![] : Fin 0 → Fin S1x4x2.rank)
  shapeCasts_S1x4x2_S4x2x1 : S1x4x2.ShapeCasts S4x2x1
  bcast_S_S4x2x1 : S_.BroadcastsInDim S4x2x1 (![] : Fin 0 → Fin S4x2x1.rank)
  bcast_S1_S1x1x1_2 : S1.BroadcastsInDim S1x1x1 (![2] : Fin 1 → Fin S1x1x1.rank)
  bcast_S1x1x1_S4x2x1_0_1_2 : S1x1x1.BroadcastsInDim S4x2x1 (![0, 1, 2] : Fin 3 → Fin S4x2x1.rank)
  reducesTo_S4x2x1_S4x2_d2 : S4x2x1.ReducesTo [2] S4x2
  bcast_S4x2_S32768x4x2_1_2 : S4x2.BroadcastsInDim S32768x4x2 (![1, 2] : Fin 2 → Fin S32768x4x2.rank)
  bcast_S_S32768x4x2 : S_.BroadcastsInDim S32768x4x2 (![] : Fin 0 → Fin S32768x4x2.rank)
  concatenates_S32768x4x1_S32768x4x2_S32768x4x3_d2 : Shape.Concatenates [S32768x4x1, S32768x4x2] S32768x4x3 2
  bcast_S_S32768x4x3 : S_.BroadcastsInDim S32768x4x3 (![] : Fin 0 → Fin S32768x4x3.rank)
  reducesTo_S32768x4x3_S32768x4_d2 : S32768x4x3.ReducesTo [2] S32768x4
  bcast_S_S32768x4 : S_.BroadcastsInDim S32768x4 (![] : Fin 0 → Fin S32768x4.rank)
  bcast_S32768x4x1_S32768x4x3_0_1_2 : S32768x4x1.BroadcastsInDim S32768x4x3 (![0, 1, 2] : Fin 3 → Fin S32768x4x3.rank)
  slices_S32768x4x3_S32768x4x1_0_0_0 : S32768x4x3.Slices ![0, 0, 0] S32768x4x1
  shapeCasts_S32768x4x1_S32768x4 : S32768x4x1.ShapeCasts S32768x4
  reducesTo_S32768x4_S_d0_1 : S32768x4.ReducesTo [0, 1] S_
  dot_S32768x4x256_S32768x4x256_S32768x4x4_2_2_1_1_0_0_wf : DotDims.WF S32768x4x256 S32768x4x256 S32768x4x4 [2] [2] [1] [1] [0] [0]
  gather_S32768x4x4_S4x2x1_S32768x4x2_0_2_1_0_2_2_3276811_wf : GatherDims.WF S32768x4x4 S4x2x1 S32768x4x2 [0] [2] [1] [2] [0] 2 ![32768, 1, 1]

variable [Facts₀]

def dot_S32768x4x256_S32768x4x256_S32768x4x4_2_2_1_1_0_0 : DotDims S32768x4x256 S32768x4x256 S32768x4x4 where
  lhsContracting := [2]
  rhsContracting := [2]
  lhsNonContracting := [1]
  rhsNonContracting := [1]
  lhsBatch := [0]
  rhsBatch := [0]
  wf := dot_S32768x4x256_S32768x4x256_S32768x4x4_2_2_1_1_0_0_wf
def gather_S32768x4x4_S4x2x1_S32768x4x2_0_2_1_0_2_2_3276811 : GatherDims S32768x4x4 S4x2x1 S32768x4x2 where
  offsetDims := [0]
  collapsedSliceDims := [2]
  operandBatchingDims := [1]
  startIndicesBatchingDims := [0]
  startIndexMap := [2]
  indexVectorDim := 2
  sliceSizes := ![32768, 1, 1]
  wf := gather_S32768x4x4_S4x2x1_S32768x4x2_0_2_1_0_2_2_3276811_wf

class Facts : Prop extends Facts₀ where

variable [Facts]
-- ==== Proof.KBody.lean ====
import proofs.«165558_j6227702579662_2_alg».proof.Proof.Gen.KernelIdeal.Frame
import proofs.«165558_j6227702579662_2_alg».proof.Proof.Gen.KernelIdeal.Skeleton

import Idealize.ShloMosaic.Lib.Pipeline.Value

set_option maxRecDepth 16384

noncomputable section

namespace Cert.KernelIdeal.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The branch conditions -/

/-- The condition of the first conditional (the reduction axis' coordinate is zero), as the body computes it. -/
abbrev condFirst (i : grid0.Coords) : Prop := (Scalar.cmpi .ne (Scalar.extui (Scalar.cmpi .eq (BitVec.ofNat 32 (i 1).val) 0#32)) 0#32) = 1#1
/-- The condition of the second conditional (the coordinate is not zero). -/
abbrev condLater (i : grid0.Coords) : Prop := (Scalar.cmpi .ne (Scalar.extui (Scalar.cmpi .ne (BitVec.ofNat 32 (i 1).val) 0#32)) 0#32) = 1#1
/-- The condition of the third conditional (the coordinate is the last one, 7). -/
abbrev condLast (i : grid0.Coords) : Prop := k0_cond3 i = 1#1

/-! ## The values -/

/-- The two column halves of a [2048,512] block, as the body's loads cut them. -/
abbrev rLo : Rect S2048x512 := Rect.unit (s := S2048x512) ![0, 0] S2048x256.size inb_S2048x512_S2048x256_0_0
abbrev rHi : Rect S2048x512 := Rect.unit (s := S2048x512) ![0, 256] S2048x256.size inb_S2048x512_S2048x256_0_256
/-- Columns 0–255 of a block. -/
def halfLo (x : Vec F S2048x512 .f32) : Vec F S2048x256 .f32 := View.ld x rLo
/-- Columns 256–511 of a block. -/
def halfHi (x : Vec F S2048x512 .f32) : Vec F S2048x256 .f32 := View.ld x rHi

section Values
variable (x0 x1 : Vec F S2048x512 .f32)

/-- The four normalized row groups: of the second operand's two halves, then of the first's. -/
def nrm0 : FVec F S2048x256 .f32 := k0_pay4 (halfLo x1)
def nrm1 : FVec F S2048x256 .f32 := k0_pay5 (halfHi x1)
def nrm2 : FVec F S2048x256 .f32 := k0_pay6 (halfLo x0)
def nrm3 : FVec F S2048x256 .f32 := k0_pay7 (halfHi x0)
/-- The product of the second operand's normalized halves. -/
def prd01 : FVec F S2048x256 .f32 := k0_pay8 (halfLo x1) (halfHi x1)

/-- The three partial results the point's contribution is summed from. -/
def part133 : FVec F S2048x1 .f32 :=
  k0_pay21 (k0_pay11 (nrm0 x1) (nrm3 x0)) (k0_pay13 (nrm1 x1) (nrm3 x0)) (k0_pay14 (nrm2 x0) (nrm3 x0))
def part138 : FVec F S1x1 .f32 :=
  k0_pay22 (k0_pay15 (nrm0 x1) (nrm2 x0) (nrm3 x0) (prd01 x1)) (k0_pay16 (nrm1 x1) (nrm3 x0)) (k0_pay18 (nrm1 x1) (nrm2 x0))
    (k0_pay19 (nrm1 x1) (nrm2 x0) (nrm3 x0) (prd01 x1)) (k0_pay20 (nrm1 x1) (nrm2 x0) (nrm3 x0) (prd01 x1))
def part140 : FVec F S1x1 .f32 :=
  k0_pay23 (k0_pay10 (nrm0 x1) (nrm2 x0)) (k0_pay12 (nrm1 x1) (nrm2 x0)) (k0_pay14 (nrm2 x0) (nrm3 x0))

/-- THE POINT'S CONTRIBUTION: the block pair's loss total, broadcast to [8,128]. -/
def contrib : FVec F S8x128 .f32 := k0_pay1 (part133 x0 x1) (part138 x0 x1) (part140 x0 x1)
/-- What the body stores into the accumulator at the first point of a row of the grid: the contribution. -/
def accFirst : FVec F S8x128 .f32 := k0_pay2 (part133 x0 x1) (part138 x0 x1) (part140 x0 x1)
/-- What it stores at a later point: the accumulator's contents plus the contribution. -/
def accNext (prev : Vec F S8x128 .f32) : FVec F S8x128 .f32 := k0_pay3 (part133 x0 x1) (part138 x0 x1) (part140 x0 x1) prev

theorem accFirst_eq : accFirst x0 x1 = shapeCast S8x128 (contrib x0 x1) shapeCasts_S8x128_S8x128 := rfl
theorem accNext_eq (prev : Vec F S8x128 .f32) :
    accNext x0 x1 prev = shapeCast S8x128 (addf prev (contrib x0 x1)) shapeCasts_S8x128_S8x128 := rfl
end Values

/-- The zero offsets of a whole-buffer rectangle. -/
theorem zeros2 : (![0, 0] : Fin 2 → ℕ) = fun _ => 0 := by funext a; fin_cases a <;> rfl

/-- One store through the whole-buffer rectangle reads back as its payload, whatever the buffer held. -/
theorem read_store_whole {κ : Kind} {sp : Space} (v : View sig κ sp S8x128 .f32) (f : v.ty.Contents (Elt F))
    (w : S8x128.Idx → Elt F .f32) :
    v.read (Elt F) (v.writes (Elt F) f [(⟨Rect.unit (s := S8x128) ![0, 0] S8x128.size inb_S8x128_S8x128_0_0, w⟩ : View.Piece (Elt F) S8x128 .f32)]) = w := by
  have hcov : ∀ y : S8x128.Idx, ∃ p ∈ [(⟨Rect.unit (s := S8x128) ![0, 0] S8x128.size inb_S8x128_S8x128_0_0, w⟩ : View.Piece (Elt F) S8x128 .f32)], y ∈ p.1.set :=
    fun y => ⟨_, List.mem_singleton_self _, View.mem_set_unit_zero (S := S8x128) zeros2 inb_S8x128_S8x128_0_0 y⟩
  rw [View.read_writes_eq_canon v f _ hcov, View.canon_unit_zero (S := S8x128) zeros2 inb_S8x128_S8x128_0_0 w]

/-- A load through the whole-buffer rectangle reads the buffer's contents. -/
theorem readAt_whole {κ : Kind} {sp : Space} (v : View sig κ sp S8x128 .f32) (f : v.ty.Contents (Elt F)) :
    View.readAt (Elt F) v (Rect.unit (s := S8x128) ![0, 0] S8x128.size inb_S8x128_S8x128_0_0).toLoadRect f = v.read (Elt F) f :=
  (View.readAt_eq_ld v f _).trans (View.ld_unit_zero (S := S8x128) zeros2 inb_S8x128_S8x128_0_0 _)

/-- A load through the whole-buffer rectangle after one store through it reads the stored payload. -/
theorem readCov_store_whole {κ : Kind} {sp : Space} (v : View sig κ sp S8x128 .f32) (w : S8x128.Idx → Elt F .f32) :
    v.readCov [(⟨Rect.unit (s := S8x128) ![0, 0] S8x128.size inb_S8x128_S8x128_0_0, w⟩ : View.Piece (Elt F) S8x128 .f32)]
      (Rect.unit (s := S8x128) ![0, 0] S8x128.size inb_S8x128_S8x128_0_0).toLoadRect = w :=
  View.readCov_unit_zero v zeros2 inb_S8x128_S8x128_0_0 w

set_option maxHeartbeats 1000000 in
/-- The body at a first point (coordinate 0): it reads both blocks, overwrites the accumulator with the contribution and leaves the output's buffer alone. -/
theorem runFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S8x128 .f32) (harg4 : arg4.IsWhole) (arg5 : Memref sig .tc .vmem S8x128 .f32) (harg5 : arg5.IsWhole)
    (hc0 : condFirst i) (hc1 : ¬condLater i) (hc2 : ¬condLast i)
    (x0 x1 : Vec F S2048x512 .f32) (xi : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
      ∗ (iprop(owns (c : Thread nD τ) arg2 fullShare x0 ∗ owns (c : Thread nD τ) arg3 fullShare x1 ∗ owns (c : Thread nD τ) arg4 fullShare xi ∗ owns (c : Thread nD τ) arg5 fullShare (accFirst x0 x1)) -∗ K ⟨⟩))
    ⊢ wp frame (wpE (defs₀ (F := F)) Variants.none c none) E (cc0__loss_kernel i arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%ds0, %fs0, -, HS0⟩, Hk⟩
  subst hf0; subst hf1
  sl_exec (disch := first | exact hc0 | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; exact hf2
    iexact H2
  iexists _; isplitr
  swap; · iexact HS0
  ipureintro
  rw [read_store_whole]
  rfl

set_option maxHeartbeats 1000000 in
/-- The body at a middle point (coordinate 1…6): it reads both blocks, adds the contribution to the accumulator and leaves the output's buffer alone. -/
theorem runMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S8x128 .f32) (harg4 : arg4.IsWhole) (arg5 : Memref sig .tc .vmem S8x128 .f32) (harg5 : arg5.IsWhole)
    (hc0 : ¬condFirst i) (hc1 : condLater i) (hc2 : ¬condLast i)
    (x0 x1 : Vec F S2048x512 .f32) (xi xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
      ∗ (iprop(owns (c : Thread nD τ) arg2 fullShare x0 ∗ owns (c : Thread nD τ) arg3 fullShare x1 ∗ owns (c : Thread nD τ) arg4 fullShare xi ∗ owns (c : Thread nD τ) arg5 fullShare (accNext x0 x1 xs)) -∗ K ⟨⟩))
    ⊢ wp frame (wpE (defs₀ (F := F)) Variants.none c none) E (cc0__loss_kernel i arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs0, %hfs0, HS0⟩, Hk⟩
  subst hf0; subst hf1; subst hfs0
  sl_exec (disch := first | exact hc0 | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; exact hf2
    iexact H2
  iexists _; isplitr
  swap; · iexact HS0
  ipureintro
  rw [read_store_whole, readAt_whole]
  rfl

set_option maxHeartbeats 1000000 in
/-- The body at a last point (coordinate 7): it adds the contribution to the accumulator and copies the accumulator into the output's buffer. -/
theorem runLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S8x128 .f32) (harg4 : arg4.IsWhole) (arg5 : Memref sig .tc .vmem S8x128 .f32) (harg5 : arg5.IsWhole)
    (hc0 : ¬condFirst i) (hc1 : condLater i) (hc2 : condLast i)
    (x0 x1 : Vec F S2048x512 .f32) (xs : Vec F S8x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
      ∗ (iprop(owns (c : Thread nD τ) arg2 fullShare x0 ∗ owns (c : Thread nD τ) arg3 fullShare x1 ∗ owns (c : Thread nD τ) arg4 fullShare (accNext x0 x1 xs) ∗ owns (c : Thread nD τ) arg5 fullShare (accNext x0 x1 xs)) -∗ K ⟨⟩))
    ⊢ wp frame (wpE (defs₀ (F := F)) Variants.none c none) E (cc0__loss_kernel i arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro
    unfold runLast.sl.v156 runLast.sl.HS0_1
    rw [read_store_whole, readCov_store_whole, readAt_whole]
    rfl
  iexists _; isplitr
  swap; · iexact HS0
  ipureintro
  unfold runLast.sl.HS0_1
  rw [read_store_whole, readAt_whole]
  rfl

/-! ## Which case a point is in, and where the output window is idle -/

/-- The first conditional holds at the points ≡ 0 (mod 8) — decided over the grid. -/
theorem hcondFirst : ∀ t : Fin cfg0.N, condFirst (grid0.coords t) ↔ t.val % 8 = 0 :=
  (by decide +kernel : ∀ t : Fin grid0.N, condFirst (grid0.coords t) ↔ t.val % 8 = 0)
/-- The second at every other point. -/
theorem hcondLater : ∀ t : Fin cfg0.N, condLater (grid0.coords t) ↔ ¬t.val % 8 = 0 :=
  (by decide +kernel : ∀ t : Fin grid0.N, condLater (grid0.coords t) ↔ ¬t.val % 8 = 0)
/-- The third at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output window is idle away from the points ≡ 7 (mod 8), live at them. -/
theorem idle2 : ∀ t : Fin cfg0.N, ¬t.val % 8 = 7 → cfg0.idle 2 (grid0.coords t) = true := by decide +kernel
theorem live2 : ∀ t : Fin cfg0.N, t.val % 8 = 7 → cfg0.idle 2 (grid0.coords t) = false := by decide +kernel
/-- Away from them its block is not written back. -/
theorem noFlush2 (t : Fin cfg0.N) (h : ¬t.val % 8 = 7) : (cfg0.win 2).flush t = false :=
  Bool.eq_false_iff.mpr fun hf => h ((flush0_2 t).mp hf)

/-! ## The staging memrefs and the scratch -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev scM : Memref sig .tc .vmem S8x128 .f32 := Memref.whole cc0_scratch0

/-- The launch's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-! ## What the accumulator holds after each point -/

/-- THE ACCUMULATION, by recursion on the point's position: at a point ≡ 0 (mod 8) the point's contribution, at any
    other the contents after the point before plus the point's contribution. -/
def accAtN (c : Dev nD) : (n : ℕ) → n < cfg0.N → Vec F S8x128 .f32
  | 0, hn => accFirst (iblk m c 0 ⟨0, hn⟩) (iblk m c 1 ⟨0, hn⟩)
  | n + 1, hn =>
    if (n + 1) % 8 = 0 then accFirst (iblk m c 0 ⟨n + 1, hn⟩) (iblk m c 1 ⟨n + 1, hn⟩)
    else accNext (iblk m c 0 ⟨n + 1, hn⟩) (iblk m c 1 ⟨n + 1, hn⟩) (accAtN c n (Nat.lt_of_succ_lt hn))

/-- The accumulator's contents after the body at point `t`. -/
def accAt (c : Dev nD) (t : Fin cfg0.N) : Vec F S8x128 .f32 := accAtN m c t.val t.isLt

theorem accAt_first (c : Dev nD) (t : Fin cfg0.N) (h : t.val % 8 = 0) :
    accAt m c t = accFirst (iblk m c 0 t) (iblk m c 1 t) := by
  obtain ⟨n, hn⟩ := t
  cases n with
  | zero => rfl
  | succ n => exact if_pos h

theorem accAt_next (c : Dev nD) (t : Fin cfg0.N) (h : ¬t.val % 8 = 0) :
    accAt m c t = accNext (iblk m c 0 t) (iblk m c 1 t) (accAtN m c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The region invariant before position `n`: before the first point what the launch hands over (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAtN m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAtN m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAtN m c (n - 1) (by omega))) ∗ (∃ r, prngReg c r)) := by
  cases n with
  | zero => exact absurd rfl hz
  | succ n => rfl

/-- At any position the invariant holds the accumulator at SOME contents. -/
theorem PhiS_some (c : Dev nD) (n : ℕ) (h : n ≤ cfg0.N) :
    PhiS m c n h ⊢ iprop(iprop((∃ d, owns (c : Thread nD τ) scM fullShare d)) ∗ (∃ r, prngReg c r)) := by
  cases n with
  | zero => rw [PhiS_zero m c 0 h rfl, PhiA_eq]
  | succ n =>
    rw [PhiS_succ]
    iintro ⟨HS, Hg⟩
    isplitl [HS]
    · iexists _; iexact HS
    iexact Hg

/-! ## The proof data -/

/-- The proof data of the pipeline on core `c`: the arrays as the region finds them; after the body at point `t` each
    input's buffer at its block and the output's at the accumulator's contents (consulted only where the block is
    written back: the points ≡ 7 mod 8); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
/-- What the body leaves in the output's staging buffer: the accumulator's contents. -/
theorem after2_eq (c : Dev nD) (t : Fin cfg0.N) : (dats m 0 c).after 2 t = accAt m c t := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [PhiS_castSucc m c t]
  by_cases h7 : t.val % 8 = 7
  · -- a last point: the accumulator, added to, is copied into the output's buffer, which is written back
    have h0 : ¬t.val % 8 = 0 := by omega
    have hz : t.val ≠ 0 := fun e => h0 (by rw [e])
    rw [show (dats m 0 c).leavesExact 2 t = owns (c : Thread nD τ) (ms2 t) fullShare ((dats m 0 c).after 2 t) from by
      unfold Dat.leavesExact; rw [live2 t h7], after2_eq, accAt_next m c t h0]
    rw [show accAtN m c t.val t.isLt = accAt m c t from rfl, accAt_next m c t h0, PhiS_pos m c _ _ hz]
    iintro ⟨⟨HS, Hg⟩, Ho, ⟨%d0, H0⟩, ⟨%d1, H1⟩, ⟨%d2, H2⟩⟩
    iapply (runLast c (grid0.coords t) _ _ _ _ _ _ _ _ (fun h => h0 ((hcondFirst t).mp h)) ((hcondLater t).mpr h0) ((hcondLast t).mpr h7)
      (iblk m c 0 t) (iblk m c 1 t) _ Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idle2 t h7) (noFlush2 t h7)]
    by_cases h0 : t.val % 8 = 0
    · -- a first point: the accumulator, whatever it held, is overwritten with the contribution
      rw [show accAtN m c t.val t.isLt = accAt m c t from rfl, accAt_first m c t h0]
      iintro ⟨HP, Ho, ⟨%d0, H0⟩, ⟨%d1, H1⟩, ⟨%d2, H2⟩⟩
      ihave HP' := (PhiS_some m c _ _) $$ HP
      icases HP' with ⟨HS, Hg⟩
      iapply (runFirst c (grid0.coords t) _ _ _ _ _ _ _ _ ((hcondFirst t).mpr h0) (fun h => ((hcondLater t).mp h) h0) (fun h => h7 ((hcondLast t).mp h))
        (iblk m c 0 t) (iblk m c 1 t) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · -- a middle point: the contribution is added to what the point before left
      have hz : t.val ≠ 0 := fun e => h0 (by rw [e])
      rw [show accAtN m c t.val t.isLt = accAt m c t from rfl, accAt_next m c t h0, PhiS_pos m c _ _ hz]
      iintro ⟨⟨HS, Hg⟩, Ho, ⟨%d0, H0⟩, ⟨%d1, H1⟩, ⟨%d2, H2⟩⟩
      iapply (runMid c (grid0.coords t) _ _ _ _ _ _ _ _ (fun h => h0 ((hcondFirst t).mp h)) ((hcondLater t).mpr h0) (fun h => h7 ((hcondLast t).mp h))
        (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_some m c _ _

/-! ## The run -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At a point whose block is written back (≡ 7 mod 8) the output's staging buffer holds the accumulator's contents
    after that point. -/
theorem after2 (c : Dev nD) (t : Fin cfg0.N) (h : t.val % 8 = 7) : (dats m 0 c).after 2 t = accAt m c t := after2_eq m c t

end Cert.KernelIdeal.KBody

end
-- ==== Proof.KBodyBits.lean ====
import proofs.«165558_j6227702579662_2_alg».proof.Proof.Gen.Kernel.Frame
import proofs.«165558_j6227702579662_2_alg».proof.Proof.Gen.Kernel.Skeleton

import Idealize.ShloMosaic.Lib.Pipeline.Value

set_option maxRecDepth 16384

noncomputable section

namespace Cert.Kernel.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The branch conditions -/

/-- The condition of the first conditional (the reduction axis' coordinate is zero), as the body computes it. -/
abbrev condFirst (i : grid0.Coords) : Prop := (Scalar.cmpi .ne (Scalar.extui (Scalar.cmpi .eq (BitVec.ofNat 32 (i 1).val) 0#32)) 0#32) = 1#1
/-- The condition of the second conditional (the coordinate is not zero). -/
abbrev condLater (i : grid0.Coords) : Prop := (Scalar.cmpi .ne (Scalar.extui (Scalar.cmpi .ne (BitVec.ofNat 32 (i 1).val) 0#32)) 0#32) = 1#1
/-- The condition of the third conditional (the coordinate is the last one, 7). -/
abbrev condLast (i : grid0.Coords) : Prop := k0_cond3 i = 1#1

/-! ## The values -/

/-- The two column halves of a [2048,512] block, as the body's loads cut them. -/
abbrev rLo : Rect S2048x512 := Rect.unit (s := S2048x512) ![0, 0] S2048x256.size inb_S2048x512_S2048x256_0_0
abbrev rHi : Rect S2048x512 := Rect.unit (s := S2048x512) ![0, 256] S2048x256.size inb_S2048x512_S2048x256_0_256
/-- Columns 0–255 of a block. -/
def halfLo (x : Vec F S2048x512 .f32) : Vec F S2048x256 .f32 := View.ld x rLo
/-- Columns 256–511 of a block. -/
def halfHi (x : Vec F S2048x512 .f32) : Vec F S2048x256 .f32 := View.ld x rHi

section Values
variable (x0 x1 : Vec F S2048x512 .f32)

/-- The four normalized row groups: of the second operand's two halves, then of the first's. -/
def nrm0 : FVec F S2048x256 .f32 := k0_pay4 (halfLo x1)
def nrm1 : FVec F S2048x256 .f32 := k0_pay5 (halfHi x1)
def nrm2 : FVec F S2048x256 .f32 := k0_pay6 (halfLo x0)
def nrm3 : FVec F S2048x256 .f32 := k0_pay7 (halfHi x0)
/-- The product of the second operand's normalized halves. -/
def prd01 : FVec F S2048x256 .f32 := k0_pay8 (halfLo x1) (halfHi x1)

/-- The three partial results the point's contribution is summed from. -/
def part133 : FVec F S2048x1 .f32 :=
  k0_pay21 (k0_pay11 (nrm0 x1) (nrm3 x0)) (k0_pay13 (nrm1 x1) (nrm3 x0)) (k0_pay14 (nrm2 x0) (nrm3 x0))
def part138 : FVec F S1x1 .f32 :=
  k0_pay22 (k0_pay15 (nrm0 x1) (nrm2 x0) (nrm3 x0) (prd01 x1)) (k0_pay16 (nrm1 x1) (nrm3 x0)) (k0_pay18 (nrm1 x1) (nrm2 x0))
    (k0_pay19 (nrm1 x1) (nrm2 x0) (nrm3 x0) (prd01 x1)) (k0_pay20 (nrm1 x1) (nrm2 x0) (nrm3 x0) (prd01 x1))
def part140 : FVec F S1x1 .f32 :=
  k0_pay23 (k0_pay10 (nrm0 x1) (nrm2 x0)) (k0_pay12 (nrm1 x1) (nrm2 x0)) (k0_pay14 (nrm2 x0) (nrm3 x0))

/-- THE POINT'S CONTRIBUTION: the block pair's loss total, broadcast to [8,128]. -/
def contrib : FVec F S8x128 .f32 := k0_pay1 (part133 x0 x1) (part138 x0 x1) (part140 x0 x1)
/-- What the body stores into the accumulator at the first point of a row of the grid: the contribution. -/
def accFirst : FVec F S8x128 .f32 := k0_pay2 (part133 x0 x1) (part138 x0 x1) (part140 x0 x1)
/-- What it stores at a later point: the accumulator's contents plus the contribution. -/
def accNext (prev : Vec F S8x128 .f32) : FVec F S8x128 .f32 := k0_pay3 (part133 x0 x1) (part138 x0 x1) (part140 x0 x1) prev

theorem accFirst_eq : accFirst x0 x1 = shapeCast S8x128 (contrib x0 x1) shapeCasts_S8x128_S8x128 := rfl
theorem accNext_eq (prev : Vec F S8x128 .f32) :
    accNext x0 x1 prev = shapeCast S8x128 (addf prev (contrib x0 x1)) shapeCasts_S8x128_S8x128 := rfl
end Values

/-- The zero offsets of a whole-buffer rectangle. -/
theorem zeros2 : (![0, 0] : Fin 2 → ℕ) = fun _ => 0 := by funext a; fin_cases a <;> rfl

/-- One store through the whole-buffer rectangle reads back as its payload, whatever the buffer held. -/
theorem read_store_whole {κ : Kind} {sp : Space} (v : View sig κ sp S8x128 .f32) (f : v.ty.Contents (Elt F))
    (w : S8x128.Idx → Elt F .f32) :
    v.read (Elt F) (v.writes (Elt F) f [(⟨Rect.unit (s := S8x128) ![0, 0] S8x128.size inb_S8x128_S8x128_0_0, w⟩ : View.Piece (Elt F) S8x128 .f32)]) = w := by
  have hcov : ∀ y : S8x128.Idx, ∃ p ∈ [(⟨Rect.unit (s := S8x128) ![0, 0] S8x128.size inb_S8x128_S8x128_0_0, w⟩ : View.Piece (Elt F) S8x128 .f32)], y ∈ p.1.set :=
    fun y => ⟨_, List.mem_singleton_self _, View.mem_set_unit_zero (S := S8x128) zeros2 inb_S8x128_S8x128_0_0 y⟩
  rw [View.read_writes_eq_canon v f _ hcov, View.canon_unit_zero (S := S8x128) zeros2 inb_S8x128_S8x128_0_0 w]

/-- A load through the whole-buffer rectangle reads the buffer's contents. -/
theorem readAt_whole {κ : Kind} {sp : Space} (v : View sig κ sp S8x128 .f32) (f : v.ty.Contents (Elt F)) :
    View.readAt (Elt F) v (Rect.unit (s := S8x128) ![0, 0] S8x128.size inb_S8x128_S8x128_0_0).toLoadRect f = v.read (Elt F) f :=
  (View.readAt_eq_ld v f _).trans (View.ld_unit_zero (S := S8x128) zeros2 inb_S8x128_S8x128_0_0 _)

/-- A load through the whole-buffer rectangle after one store through it reads the stored payload. -/
theorem readCov_store_whole {κ : Kind} {sp : Space} (v : View sig κ sp S8x128 .f32) (w : S8x128.Idx → Elt F .f32) :
    v.readCov [(⟨Rect.unit (s := S8x128) ![0, 0] S8x128.size inb_S8x128_S8x128_0_0, w⟩ : View.Piece (Elt F) S8x128 .f32)]
      (Rect.unit (s := S8x128) ![0, 0] S8x128.size inb_S8x128_S8x128_0_0).toLoadRect = w :=
  View.readCov_unit_zero v zeros2 inb_S8x128_S8x128_0_0 w

set_option maxHeartbeats 1000000 in
/-- The body at a first point (coordinate 0): it reads both blocks, overwrites the accumulator with the contribution and leaves the output's buffer alone. -/
theorem runFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S8x128 .f32) (harg4 : arg4.IsWhole) (arg5 : Memref sig .tc .vmem S8x128 .f32) (harg5 : arg5.IsWhole)
    (hc0 : condFirst i) (hc1 : ¬condLater i) (hc2 : ¬condLast i)
    (x0 x1 : Vec F S2048x512 .f32) (xi : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
      ∗ (iprop(owns (c : Thread nD τ) arg2 fullShare x0 ∗ owns (c : Thread nD τ) arg3 fullShare x1 ∗ owns (c : Thread nD τ) arg4 fullShare xi ∗ owns (c : Thread nD τ) arg5 fullShare (accFirst x0 x1)) -∗ K ⟨⟩))
    ⊢ wp frame (wpE (defs₀ (F := F)) Variants.none c none) E (cc0__loss_kernel i arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%ds0, %fs0, -, HS0⟩, Hk⟩
  subst hf0; subst hf1
  sl_exec (disch := first | exact hc0 | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; exact hf2
    iexact H2
  iexists _; isplitr
  swap; · iexact HS0
  ipureintro
  rw [read_store_whole]
  rfl

set_option maxHeartbeats 1000000 in
/-- The body at a middle point (coordinate 1…6): it reads both blocks, adds the contribution to the accumulator and leaves the output's buffer alone. -/
theorem runMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S8x128 .f32) (harg4 : arg4.IsWhole) (arg5 : Memref sig .tc .vmem S8x128 .f32) (harg5 : arg5.IsWhole)
    (hc0 : ¬condFirst i) (hc1 : condLater i) (hc2 : ¬condLast i)
    (x0 x1 : Vec F S2048x512 .f32) (xi xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
      ∗ (iprop(owns (c : Thread nD τ) arg2 fullShare x0 ∗ owns (c : Thread nD τ) arg3 fullShare x1 ∗ owns (c : Thread nD τ) arg4 fullShare xi ∗ owns (c : Thread nD τ) arg5 fullShare (accNext x0 x1 xs)) -∗ K ⟨⟩))
    ⊢ wp frame (wpE (defs₀ (F := F)) Variants.none c none) E (cc0__loss_kernel i arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs0, %hfs0, HS0⟩, Hk⟩
  subst hf0; subst hf1; subst hfs0
  sl_exec (disch := first | exact hc0 | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; exact hf2
    iexact H2
  iexists _; isplitr
  swap; · iexact HS0
  ipureintro
  rw [read_store_whole, readAt_whole]
  rfl

set_option maxHeartbeats 1000000 in
/-- The body at a last point (coordinate 7): it adds the contribution to the accumulator and copies the accumulator into the output's buffer. -/
theorem runLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S8x128 .f32) (harg4 : arg4.IsWhole) (arg5 : Memref sig .tc .vmem S8x128 .f32) (harg5 : arg5.IsWhole)
    (hc0 : ¬condFirst i) (hc1 : condLater i) (hc2 : condLast i)
    (x0 x1 : Vec F S2048x512 .f32) (xs : Vec F S8x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
      ∗ (iprop(owns (c : Thread nD τ) arg2 fullShare x0 ∗ owns (c : Thread nD τ) arg3 fullShare x1 ∗ owns (c : Thread nD τ) arg4 fullShare (accNext x0 x1 xs) ∗ owns (c : Thread nD τ) arg5 fullShare (accNext x0 x1 xs)) -∗ K ⟨⟩))
    ⊢ wp frame (wpE (defs₀ (F := F)) Variants.none c none) E (cc0__loss_kernel i arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro
    unfold runLast.sl.v156 runLast.sl.HS0_1
    rw [read_store_whole, readCov_store_whole, readAt_whole]
    rfl
  iexists _; isplitr
  swap; · iexact HS0
  ipureintro
  unfold runLast.sl.HS0_1
  rw [read_store_whole, readAt_whole]
  rfl

/-! ## Which case a point is in, and where the output window is idle -/

/-- The first conditional holds at the points ≡ 0 (mod 8) — decided over the grid. -/
theorem hcondFirst : ∀ t : Fin cfg0.N, condFirst (grid0.coords t) ↔ t.val % 8 = 0 :=
  (by decide +kernel : ∀ t : Fin grid0.N, condFirst (grid0.coords t) ↔ t.val % 8 = 0)
/-- The second at every other point. -/
theorem hcondLater : ∀ t : Fin cfg0.N, condLater (grid0.coords t) ↔ ¬t.val % 8 = 0 :=
  (by decide +kernel : ∀ t : Fin grid0.N, condLater (grid0.coords t) ↔ ¬t.val % 8 = 0)
/-- The third at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output window is idle away from the points ≡ 7 (mod 8), live at them. -/
theorem idle2 : ∀ t : Fin cfg0.N, ¬t.val % 8 = 7 → cfg0.idle 2 (grid0.coords t) = true := by decide +kernel
theorem live2 : ∀ t : Fin cfg0.N, t.val % 8 = 7 → cfg0.idle 2 (grid0.coords t) = false := by decide +kernel
/-- Away from them its block is not written back. -/
theorem noFlush2 (t : Fin cfg0.N) (h : ¬t.val % 8 = 7) : (cfg0.win 2).flush t = false :=
  Bool.eq_false_iff.mpr fun hf => h ((flush0_2 t).mp hf)

/-! ## The staging memrefs and the scratch -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev scM : Memref sig .tc .vmem S8x128 .f32 := Memref.whole cc0_scratch0

/-- The launch's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-! ## What the accumulator holds after each point -/

/-- THE ACCUMULATION, by recursion on the point's position: at a point ≡ 0 (mod 8) the point's contribution, at any
    other the contents after the point before plus the point's contribution. -/
def accAtN (c : Dev nD) : (n : ℕ) → n < cfg0.N → Vec F S8x128 .f32
  | 0, hn => accFirst (iblk m c 0 ⟨0, hn⟩) (iblk m c 1 ⟨0, hn⟩)
  | n + 1, hn =>
    if (n + 1) % 8 = 0 then accFirst (iblk m c 0 ⟨n + 1, hn⟩) (iblk m c 1 ⟨n + 1, hn⟩)
    else accNext (iblk m c 0 ⟨n + 1, hn⟩) (iblk m c 1 ⟨n + 1, hn⟩) (accAtN c n (Nat.lt_of_succ_lt hn))

/-- The accumulator's contents after the body at point `t`. -/
def accAt (c : Dev nD) (t : Fin cfg0.N) : Vec F S8x128 .f32 := accAtN m c t.val t.isLt

theorem accAt_first (c : Dev nD) (t : Fin cfg0.N) (h : t.val % 8 = 0) :
    accAt m c t = accFirst (iblk m c 0 t) (iblk m c 1 t) := by
  obtain ⟨n, hn⟩ := t
  cases n with
  | zero => rfl
  | succ n => exact if_pos h

theorem accAt_next (c : Dev nD) (t : Fin cfg0.N) (h : ¬t.val % 8 = 0) :
    accAt m c t = accNext (iblk m c 0 t) (iblk m c 1 t) (accAtN m c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The region invariant before position `n`: before the first point what the launch hands over (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAtN m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAtN m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAtN m c (n - 1) (by omega))) ∗ (∃ r, prngReg c r)) := by
  cases n with
  | zero => exact absurd rfl hz
  | succ n => rfl

/-- At any position the invariant holds the accumulator at SOME contents. -/
theorem PhiS_some (c : Dev nD) (n : ℕ) (h : n ≤ cfg0.N) :
    PhiS m c n h ⊢ iprop(iprop((∃ d, owns (c : Thread nD τ) scM fullShare d)) ∗ (∃ r, prngReg c r)) := by
  cases n with
  | zero => rw [PhiS_zero m c 0 h rfl, PhiA_eq]
  | succ n =>
    rw [PhiS_succ]
    iintro ⟨HS, Hg⟩
    isplitl [HS]
    · iexists _; iexact HS
    iexact Hg

/-! ## The proof data -/

/-- The proof data of the pipeline on core `c`: the arrays as the region finds them; after the body at point `t` each
    input's buffer at its block and the output's at the accumulator's contents (consulted only where the block is
    written back: the points ≡ 7 mod 8); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
/-- What the body leaves in the output's staging buffer: the accumulator's contents. -/
theorem after2_eq (c : Dev nD) (t : Fin cfg0.N) : (dats m 0 c).after 2 t = accAt m c t := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [PhiS_castSucc m c t]
  by_cases h7 : t.val % 8 = 7
  · -- a last point: the accumulator, added to, is copied into the output's buffer, which is written back
    have h0 : ¬t.val % 8 = 0 := by omega
    have hz : t.val ≠ 0 := fun e => h0 (by rw [e])
    rw [show (dats m 0 c).leavesExact 2 t = owns (c : Thread nD τ) (ms2 t) fullShare ((dats m 0 c).after 2 t) from by
      unfold Dat.leavesExact; rw [live2 t h7], after2_eq, accAt_next m c t h0]
    rw [show accAtN m c t.val t.isLt = accAt m c t from rfl, accAt_next m c t h0, PhiS_pos m c _ _ hz]
    iintro ⟨⟨HS, Hg⟩, Ho, ⟨%d0, H0⟩, ⟨%d1, H1⟩, ⟨%d2, H2⟩⟩
    iapply (runLast c (grid0.coords t) _ _ _ _ _ _ _ _ (fun h => h0 ((hcondFirst t).mp h)) ((hcondLater t).mpr h0) ((hcondLast t).mpr h7)
      (iblk m c 0 t) (iblk m c 1 t) _ Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idle2 t h7) (noFlush2 t h7)]
    by_cases h0 : t.val % 8 = 0
    · -- a first point: the accumulator, whatever it held, is overwritten with the contribution
      rw [show accAtN m c t.val t.isLt = accAt m c t from rfl, accAt_first m c t h0]
      iintro ⟨HP, Ho, ⟨%d0, H0⟩, ⟨%d1, H1⟩, ⟨%d2, H2⟩⟩
      ihave HP' := (PhiS_some m c _ _) $$ HP
      icases HP' with ⟨HS, Hg⟩
      iapply (runFirst c (grid0.coords t) _ _ _ _ _ _ _ _ ((hcondFirst t).mpr h0) (fun h => ((hcondLater t).mp h) h0) (fun h => h7 ((hcondLast t).mp h))
        (iblk m c 0 t) (iblk m c 1 t) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · -- a middle point: the contribution is added to what the point before left
      have hz : t.val ≠ 0 := fun e => h0 (by rw [e])
      rw [show accAtN m c t.val t.isLt = accAt m c t from rfl, accAt_next m c t h0, PhiS_pos m c _ _ hz]
      iintro ⟨⟨HS, Hg⟩, Ho, ⟨%d0, H0⟩, ⟨%d1, H1⟩, ⟨%d2, H2⟩⟩
      iapply (runMid c (grid0.coords t) _ _ _ _ _ _ _ _ (fun h => h0 ((hcondFirst t).mp h)) ((hcondLater t).mpr h0) (fun h => h7 ((hcondLast t).mp h))
        (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_some m c _ _

/-! ## The run -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At a point whose block is written back (≡ 7 mod 8) the output's staging buffer holds the accumulator's contents
    after that point. -/
theorem after2 (c : Dev nD) (t : Fin cfg0.N) (h : t.val % 8 = 7) : (dats m 0 c).after 2 t = accAt m c t := after2_eq m c t

end Cert.Kernel.KBody

end
-- ==== Proof.KFrame.lean ====
import proofs.«165558_j6227702579662_2_alg».proof.Defs
import proofs.«165558_j6227702579662_2_alg».proof.Proof.Gen.Pre_finite_inputs
import proofs.«165558_j6227702579662_2_alg».proof.Proof.KBody
import proofs.«165558_j6227702579662_2_alg».proof.Proof.KBodyBits

noncomputable section

namespace Cert.Proof.KClaims

open Idealize.ShloMosaic Idealize.SL.Sem

/-- The idealized kernel runs to completion and leaves both argument arrays as launched: the frame run's post read at
    the argument arrays. -/
theorem frame_ki : Cert.frame_KernelIdeal := fun m ρ _ =>
  Cert.KernelIdeal.Gen.frame_of m ρ (Cert.KernelIdeal.KBody.dats m) (Cert.KernelIdeal.KBody.A_eq m)
    (Cert.KernelIdeal.KBody.run_main (F := Ideal) m ρ)

/-- The same of the kernel over machine floats. -/
theorem frame_k : Cert.frame_Kernel := fun m ρ _ =>
  Cert.Kernel.Gen.frame_of m ρ (Cert.Kernel.KBody.dats m) (Cert.Kernel.KBody.A_eq m)
    (Cert.Kernel.KBody.run_main (F := Bits) m ρ)

end Cert.Proof.KClaims

end
-- ==== Proof.Spec.lean ====
/-
  The normalised-temperature cross-entropy of four-row chunks, as one function of the two input arrays.

  The inputs `zi`, `zj` are [65536, 256] arrays. Chunk `n` (of 32768) gathers four rows of 256 features:
  rows `2n`, `2n+1` of `zj`, then rows `2n`, `2n+1` of `zi` (`rep`). A row `u` is scaled by its Euclidean norm clamped
  below by the word `eps` (`nrm`, `unit`); the cosine of two rows is the dot product of their scaled copies (`cos`).
  Row `c` of a chunk has one positive partner, row `c + 2 (mod 4)`, and two negatives, the rows of the other parity;
  its loss is the cross-entropy of the three cosines at temperature 1/2 with the positive as the label (`ce`):
  `m + log (e^(a-m) + e^(b-m) + e^(c-m)) - a` with `a, b, c` the doubled cosines and `m` their maximum. The result is
  the sum of all 32768·4 row losses (`total`) divided by the word 65536.
-/
import Idealize.ShloMosaic.PureOps.Ideal
import Idealize.ShloMosaic.PureOps.Ideal.Laws
import Idealize.ShloMosaic.Lib.ValueIdx

noncomputable section

namespace Cert.NTXent

open Idealize.ShloMosaic Idealize.ShloMosaic.ValueIdx

/-- The clamp of a norm, the temperature's reciprocal, the temperature: three f32 words, never evaluated but where a
    sign or a realness is needed. -/
abbrev epsW : EReal := Ideal.ofBits .f32 0x322BCC77#32
abbrev twoW : EReal := Ideal.ofBits .f32 0x40000000#32
abbrev halfW : EReal := Ideal.ofBits .f32 0x3F000000#32

/-- An input array. -/
abbrev Arr : Type := (⟨2, ![65536, 256]⟩ : Shape).Idx → EReal

/-- Row `r` of an input array. -/
def rowOf (x : Arr) (r : Fin 65536) : Fin 256 → EReal := fun d => x (ix2 r d)

/-- The four rows of chunk `n`: two of `zj`, then two of `zi`. -/
def rep (zi zj : Arr) (n : Fin 32768) (c : Fin 4) : Fin 256 → EReal :=
  if h : c.val < 2 then rowOf zj ⟨2 * n.val + c.val, by omega⟩ else rowOf zi ⟨2 * n.val + (c.val - 2), by omega⟩

/-- A row's Euclidean norm, clamped below by `eps`. -/
def nrm (u : Fin 256 → EReal) : EReal := max (Ideal.sqrt (∑ d, u d * u d)) epsW

/-- A row scaled by its clamped norm. -/
def unit (u : Fin 256 → EReal) (d : Fin 256) : EReal := Ideal.div (u d) (nrm u)

/-- The cosine of two rows. -/
def cos (u v : Fin 256 → EReal) : EReal := ∑ d, unit u d * unit v d

/-- The cross-entropy of three cosines, the first the label, at temperature 1/2. -/
def ce (p n0 n1 : EReal) : EReal :=
  (max (max (p * twoW) (n0 * twoW)) (n1 * twoW)
    + Ideal.log (Ideal.exp (p * twoW - max (max (p * twoW) (n0 * twoW)) (n1 * twoW))
        + Ideal.exp (n0 * twoW - max (max (p * twoW) (n0 * twoW)) (n1 * twoW))
        + Ideal.exp (n1 * twoW - max (max (p * twoW) (n0 * twoW)) (n1 * twoW))))
    - p * twoW

/-- Row `c`'s positive partner and its two negatives. -/
def pos : Fin 4 → Fin 4 := ![2, 3, 0, 1]
def neg0 : Fin 4 → Fin 4 := ![1, 0, 1, 0]
def neg1 : Fin 4 → Fin 4 := ![3, 2, 3, 2]

/-- The loss of row `c` of chunk `n`. -/
def loss (zi zj : Arr) (n : Fin 32768) (c : Fin 4) : EReal :=
  ce (cos (rep zi zj n c) (rep zi zj n (pos c))) (cos (rep zi zj n c) (rep zi zj n (neg0 c)))
    (cos (rep zi zj n c) (rep zi zj n (neg1 c)))

/-- The sum of all row losses. -/
def total (zi zj : Arr) : EReal := ∑ n : Fin 32768, ∑ c : Fin 4, loss zi zj n c

/-- The cosine is symmetric. -/
theorem cos_comm (u v : Fin 256 → EReal) : cos u v = cos v u := by
  unfold cos; exact Finset.sum_congr rfl fun d _ => mul_comm _ _

end Cert.NTXent

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.KPayload.lean ====
/-
  What one grid point of the kernel contributes, read on the extended reals.

  A point loads four [2048, 256] halves: row `p` of each is one of the four rows of a chunk. Each half is scaled row by
  row by its clamped norm; six row-wise dot products give the cosines; each of the four rows' losses is the
  cross-entropy of three of them; the four columns of 2048 losses are summed and the four sums added, and the scalar is
  spread over an [8, 128] tile. So every entry of the tile is the sum over the 2048 rows `p` of the four losses of the
  chunk made of the halves' rows `p` (`contribOf_apply`).
-/
import proofs.«165558_j6227702579662_2_alg».proof.Proof.Gen.KernelIdeal.Skeleton
import proofs.«165558_j6227702579662_2_alg».proof.Proof.Spec
import proofs.«165558_j6227702579662_2_alg».proof.Proof.LibKeepdims
import proofs.«165558_j6227702579662_2_alg».proof.Proof.LibColumnSum

set_option maxRecDepth 16384

noncomputable section

namespace Cert.KernelIdeal.KPay

open Cert.KernelIdeal Cert.KernelIdeal.Gen Idealize.ShloMosaic Idealize.ShloMosaic.ValueIdx Idealize.ShloMosaic.ValueKeepdims
open Cert

/-- The point's contribution as the body composes it from the four loaded halves, at any float values. -/
def contribOf {F : FTy → Type} [FloatOps F] (v0 v2 v4 v6 : Vec F S2048x256 .f32) : FVec F S8x128 .f32 :=
  k0_pay1
    (k0_pay21 (k0_pay11 (k0_pay4 v0) (k0_pay7 v6)) (k0_pay13 (k0_pay5 v2) (k0_pay7 v6)) (k0_pay14 (k0_pay6 v4) (k0_pay7 v6)))
    (k0_pay22 (k0_pay15 (k0_pay4 v0) (k0_pay6 v4) (k0_pay7 v6) (k0_pay8 v0 v2)) (k0_pay16 (k0_pay5 v2) (k0_pay7 v6))
      (k0_pay18 (k0_pay5 v2) (k0_pay6 v4)) (k0_pay19 (k0_pay5 v2) (k0_pay6 v4) (k0_pay7 v6) (k0_pay8 v0 v2))
      (k0_pay20 (k0_pay5 v2) (k0_pay6 v4) (k0_pay7 v6) (k0_pay8 v0 v2)))
    (k0_pay23 (k0_pay10 (k0_pay4 v0) (k0_pay6 v4)) (k0_pay12 (k0_pay5 v2) (k0_pay6 v4)) (k0_pay14 (k0_pay6 v4) (k0_pay7 v6)))

/-- Row `p` of a half. -/
def rowAt (v : Vec Ideal S2048x256 .f32) (p : Fin 2048) : Fin 256 → EReal := fun d => v (ix2 p d)

/-- A row sum with the zero word as the printed accumulator. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) :=
  multiReduction_add_row src 0x00000000#32 h hφ hacc i

/-- A half scaled row by row: entry `(p, d)` is the row's entry over the row's clamped norm. -/
theorem scaled_apply (v : Vec Ideal S2048x256 .f32) (p : Fin 2048) (d : Fin 256) :
    divf (shapeCast S2048x256 v shapeCasts_S2048x256_S2048x256)
      (broadcastTo S2048x256
        (maximumf (sqrt (shapeCast S2048x1
            (multiReduction .add [1] S2048 (mulf (shapeCast S2048x256 v shapeCasts_S2048x256_S2048x256)
              (shapeCast S2048x256 v shapeCasts_S2048x256_S2048x256)) 0x00000000#32 reduces_S2048x256_S2048 (.inl rfl) rfl)
            shapeCasts_S2048_S2048x1))
          (broadcast S2048x1 (Scalar.ofBits (F := Ideal) .f32 0x322BCC77#32)))
        broadcasts_S2048x1_S2048x256) (ix2 p d)
      = NTXent.unit (rowAt v p) d := by
  show Ideal.div (shapeCast S2048x256 v shapeCasts_S2048x256_S2048x256 (ix2 p d)) (broadcastTo S2048x256 _ broadcasts_S2048x1_S2048x256 (ix2 p d)) = _
  rw [shapeCast_self, broadcastTo_a1_ab_apply]
  show Ideal.div (v (ix2 p d)) (max (Ideal.sqrt (shapeCast S2048x1 _ shapeCasts_S2048_S2048x1 (ix2 p (0 : Fin 1)))) NTXent.epsW) = _
  rw [shapeCast_a_a1_apply, rowSum_at]
  rfl

theorem pay4_apply (v : Vec Ideal S2048x256 .f32) (p : Fin 2048) (d : Fin 256) : k0_pay4 (F := Ideal) v (ix2 p d) = NTXent.unit (rowAt v p) d := by
  unfold k0_pay4; exact scaled_apply v p d
theorem pay5_apply (v : Vec Ideal S2048x256 .f32) (p : Fin 2048) (d : Fin 256) : k0_pay5 (F := Ideal) v (ix2 p d) = NTXent.unit (rowAt v p) d := by
  unfold k0_pay5; exact scaled_apply v p d
theorem pay6_apply (v : Vec Ideal S2048x256 .f32) (p : Fin 2048) (d : Fin 256) : k0_pay6 (F := Ideal) v (ix2 p d) = NTXent.unit (rowAt v p) d := by
  unfold k0_pay6; exact scaled_apply v p d
theorem pay7_apply (v : Vec Ideal S2048x256 .f32) (p : Fin 2048) (d : Fin 256) : k0_pay7 (F := Ideal) v (ix2 p d) = NTXent.unit (rowAt v p) d := by
  unfold k0_pay7; exact scaled_apply v p d

/-- A row-wise dot product kept as a column: entry `(p, 0)` is the sum over the features of the products. -/
theorem rowdot_apply (x y : FVec Ideal S2048x256 .f32) (p : Fin 2048) :
    shapeCast S2048x1 (multiReduction .add [1] S2048 (mulf x y) 0x00000000#32 reduces_S2048x256_S2048 (.inl rfl) rfl)
      shapeCasts_S2048_S2048x1 (ix2 p (0 : Fin 1)) = ∑ d : Fin 256, x (ix2 p d) * y (ix2 p d) := by
  rw [shapeCast_a_a1_apply, rowSum_at]
  rfl

/-- The dot product of two scaled halves at row `p` is the cosine of the two rows. -/
theorem rowdot_cos (a b : Vec Ideal S2048x256 .f32) (x y : FVec Ideal S2048x256 .f32)
    (hx : ∀ p d, x (ix2 p d) = NTXent.unit (rowAt a p) d) (hy : ∀ p d, y (ix2 p d) = NTXent.unit (rowAt b p) d) (p : Fin 2048) :
    shapeCast S2048x1 (multiReduction .add [1] S2048 (mulf x y) 0x00000000#32 reduces_S2048x256_S2048 (.inl rfl) rfl)
      shapeCasts_S2048_S2048x1 (ix2 p (0 : Fin 1)) = NTXent.cos (rowAt a p) (rowAt b p) := by
  rw [rowdot_apply]
  unfold NTXent.cos
  exact Finset.sum_congr rfl fun d _ => by rw [hx, hy]

/-! ### The six cosines of a point's rows -/

section Cosines
variable (v0 v2 v4 v6 : Vec Ideal S2048x256 .f32) (p : Fin 2048)

theorem pay9_apply : k0_pay9 (F := Ideal) (k0_pay8 v0 v2) (ix2 p (0 : Fin 1)) = NTXent.cos (rowAt v0 p) (rowAt v2 p) := by
  unfold k0_pay9 k0_pay8; exact rowdot_cos v0 v2 _ _ (pay4_apply v0) (pay5_apply v2) p
theorem pay10_apply : k0_pay10 (F := Ideal) (k0_pay4 v0) (k0_pay6 v4) (ix2 p (0 : Fin 1)) = NTXent.cos (rowAt v0 p) (rowAt v4 p) := by
  unfold k0_pay10; exact rowdot_cos v0 v4 _ _ (pay4_apply v0) (pay6_apply v4) p
theorem pay11_apply : k0_pay11 (F := Ideal) (k0_pay4 v0) (k0_pay7 v6) (ix2 p (0 : Fin 1)) = NTXent.cos (rowAt v0 p) (rowAt v6 p) := by
  unfold k0_pay11; exact rowdot_cos v0 v6 _ _ (pay4_apply v0) (pay7_apply v6) p
theorem pay12_apply : k0_pay12 (F := Ideal) (k0_pay5 v2) (k0_pay6 v4) (ix2 p (0 : Fin 1)) = NTXent.cos (rowAt v2 p) (rowAt v4 p) := by
  unfold k0_pay12; exact rowdot_cos v2 v4 _ _ (pay5_apply v2) (pay6_apply v4) p
theorem pay13_apply : k0_pay13 (F := Ideal) (k0_pay5 v2) (k0_pay7 v6) (ix2 p (0 : Fin 1)) = NTXent.cos (rowAt v2 p) (rowAt v6 p) := by
  unfold k0_pay13; exact rowdot_cos v2 v6 _ _ (pay5_apply v2) (pay7_apply v6) p
theorem pay14_apply : k0_pay14 (F := Ideal) (k0_pay6 v4) (k0_pay7 v6) (ix2 p (0 : Fin 1)) = NTXent.cos (rowAt v4 p) (rowAt v6 p) := by
  unfold k0_pay14; exact rowdot_cos v4 v6 _ _ (pay6_apply v4) (pay7_apply v6) p

end Cosines

/-! ### The four losses of a row of chunks, pointwise in the cosine columns -/

theorem pay15_apply (v15 v31 v39 v40 : FVec Ideal S2048x256 .f32) (i : S2048x1.Idx) :
    k0_pay15 (F := Ideal) v15 v31 v39 v40 i = NTXent.ce (k0_pay10 v15 v31 i) (k0_pay9 v40 i) (k0_pay11 v15 v39 i) := rfl

theorem pay21_apply (v48 v54 v57 : FVec Ideal S2048x1 .f32) (i : S2048x1.Idx) :
    k0_pay21 (F := Ideal) v48 v54 v57 i = NTXent.ce (v54 i) (v48 i) (v57 i) := rfl

/-- The four rows' partners: the second row's loss is the cross-entropy of its three cosines. -/
theorem loss1_apply (v23 v31 v39 v40 : FVec Ideal S2048x256 .f32) (i : S2048x1.Idx) :
    (k0_pay19 (F := Ideal) v23 v31 v39 v40 i
        + Ideal.log (k0_pay20 (F := Ideal) v23 v31 v39 v40 i + Ideal.exp (k0_pay18 (F := Ideal) v23 v31 i - k0_pay19 (F := Ideal) v23 v31 v39 v40 i)))
      - k0_pay16 (F := Ideal) v23 v39 i
      = NTXent.ce (k0_pay13 v23 v39 i) (k0_pay9 v40 i) (k0_pay12 v23 v31 i) := rfl

/-! ### The column sums and the tile -/

/-- A [2048, 1] column summed to the scalar kept as [1, 1]: the sum over the 2048 rows. -/
theorem colsum_apply (x : FVec Ideal S2048x1 .f32) :
    shapeCast S1x1 (multiReduction .add [0] S1 x 0x00000000#32 reduces_S2048x1_S1 (.inl rfl) rfl) shapeCasts_S1_S1x1
      (ix2 (0 : Fin 1) (0 : Fin 1)) = ∑ p : Fin 2048, x (ix2 p (0 : Fin 1)) := by
  rw [shapeCast_a_a1_apply, colSum_at]

theorem pay23_apply (v45 v51 v57 : FVec Ideal S2048x1 .f32) :
    k0_pay23 (F := Ideal) v45 v51 v57 (ix2 (0 : Fin 1) (0 : Fin 1))
      = ∑ p : Fin 2048, NTXent.ce (v45 (ix2 p (0 : Fin 1))) (v51 (ix2 p (0 : Fin 1))) (v57 (ix2 p (0 : Fin 1))) := by
  unfold k0_pay23
  exact (colsum_apply _).trans (Finset.sum_congr rfl fun p _ => rfl)

theorem pay22_apply (v76 v78 v82 v84 v89 : FVec Ideal S2048x1 .f32) :
    k0_pay22 (F := Ideal) v76 v78 v82 v84 v89 (ix2 (0 : Fin 1) (0 : Fin 1))
      = (∑ p : Fin 2048, v76 (ix2 p (0 : Fin 1)))
        + ∑ p : Fin 2048, ((v84 (ix2 p (0 : Fin 1)) + Ideal.log (v89 (ix2 p (0 : Fin 1)) + Ideal.exp (v82 (ix2 p (0 : Fin 1)) - v84 (ix2 p (0 : Fin 1)))))
            - v78 (ix2 p (0 : Fin 1))) := by
  unfold k0_pay22
  exact congrArg₂ (· + ·) (colsum_apply _) ((colsum_apply _).trans (Finset.sum_congr rfl fun p _ => rfl))

theorem pay1_apply (v133 : FVec Ideal S2048x1 .f32) (v138 v140 : FVec Ideal S1x1 .f32) (r : Fin 8) (l : Fin 128) :
    k0_pay1 (F := Ideal) v133 v138 v140 (ix2 r l)
      = (v138 (ix2 (0 : Fin 1) (0 : Fin 1)) + v140 (ix2 (0 : Fin 1) (0 : Fin 1))) + ∑ p : Fin 2048, v133 (ix2 p (0 : Fin 1)) := by
  unfold k0_pay1
  refine (broadcastTo_apply _ _ (ix2 r l) (ix2 (0 : Fin 1) (0 : Fin 1)) ?_).trans ?_
  · intro a; fin_cases a <;> rfl
  · rw [shapeCast_self]
    exact congrArg₂ (· + ·) rfl (colsum_apply _)

/-! ### The point's contribution -/

/-- The four losses of the chunk made of four rows, added in the body's order. -/
def chunkLoss (r0 r1 r2 r3 : Fin 256 → EReal) : EReal :=
  ((NTXent.ce (NTXent.cos r0 r2) (NTXent.cos r0 r1) (NTXent.cos r0 r3)
      + NTXent.ce (NTXent.cos r1 r3) (NTXent.cos r0 r1) (NTXent.cos r1 r2))
    + NTXent.ce (NTXent.cos r0 r2) (NTXent.cos r1 r2) (NTXent.cos r2 r3))
  + NTXent.ce (NTXent.cos r1 r3) (NTXent.cos r0 r3) (NTXent.cos r2 r3)

/-- Every entry of the point's tile is the sum over the 2048 rows of the four losses of the chunk the halves' rows make. -/
theorem contribOf_apply (v0 v2 v4 v6 : Vec Ideal S2048x256 .f32) (r : Fin 8) (l : Fin 128) :
    contribOf (F := Ideal) v0 v2 v4 v6 (ix2 r l)
      = ∑ p : Fin 2048, chunkLoss (rowAt v0 p) (rowAt v2 p) (rowAt v4 p) (rowAt v6 p) := by
  unfold contribOf
  rw [pay1_apply, pay22_apply, pay23_apply]
  simp only [pay15_apply, pay21_apply, loss1_apply, pay9_apply, pay10_apply, pay11_apply, pay12_apply, pay13_apply, pay14_apply]
  simp only [chunkLoss, Finset.sum_add_distrib]

end Cert.KernelIdeal.KPay

end
-- ==== Proof.KBlocks.lean ====
/-
  Which rows of the two input arrays a grid point's loaded halves hold.

  The two inputs are re-laid as [32768, 512] before the launch: row `n` is rows `2n` and `2n+1` of the [65536, 256]
  array, side by side. Window `w` of the launch cuts that array into 16 blocks of 2048 rows, block `t` at point `t`;
  the body loads each block as its left and right [2048, 256] halves. So row `p` of the left (right) half of point `t`'s
  block is row `2n` (`2n+1`) of the input, with `n = 2048 t + p` the chunk's number.
-/
import proofs.«165558_j6227702579662_2_alg».proof.Proof.KBody
import proofs.«165558_j6227702579662_2_alg».proof.Proof.KPayload
import Idealize.ShloMosaic.Lib.StableHlo.Run

set_option maxRecDepth 16384

noncomputable section

namespace Cert.KernelIdeal.KBlocks

open Cert Cert.KernelIdeal Cert.KernelIdeal.Gen Cert.KernelIdeal.KBody Cert.KernelIdeal.KPay
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The first window's array as the region finds it: the first input re-laid. -/
theorem V_main_v0 (c : Dev nD) : (V m c main_v0 : S32768x512.Idx → F .f32)
    = shapeCast S32768x512 (m ((c : Thread nD τ).loc main_arg0)) shapeCasts_S65536x256_S32768x512 := by
  show StableHlo.after hostOps0 (fun b => m (c, b)) (Proc.devRef .tc main_v0) = _
  after_results
  rfl

/-- The second window's array as the region finds it: the second input re-laid. -/
theorem V_main_v1 (c : Dev nD) : (V m c main_v1 : S32768x512.Idx → F .f32)
    = shapeCast S32768x512 (m ((c : Thread nD τ).loc main_arg1)) shapeCasts_S65536x256_S32768x512 := by
  show StableHlo.after hostOps0 (fun b => m (c, b)) (Proc.devRef .tc main_v1) = _
  after_results
  rfl

/-- The re-laying [65536, 256] → [32768, 512] at `(n, j)`: row `2n + j / 256`, column `j % 256`. -/
theorem reshape_apply {α : Type} (x : S65536x256.Idx → α) (n : Fin 32768) (j : Fin 512) :
    shapeCast S32768x512 x shapeCasts_S65536x256_S32768x512 (ix2 n j)
      = x (ix2 (⟨2 * n.val + j.val / 256, by omega⟩ : Fin 65536) (⟨j.val % 256, by omega⟩ : Fin 256)) :=
  shapeCast_apply x _ _ _ (by
    rw [Shape.rowMajor_val_two, Shape.rowMajor_val_two]
    show (2 * n.val + j.val / 256) * 256 + j.val % 256 = n.val * 512 + j.val
    omega)

/-- Both windows' blocks are numbered by the point. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The chunk that row `p` of point `t`'s blocks belongs to. -/
abbrev chunkAt (t : Fin cfg0.N) (p : Fin 2048) : Fin 32768 :=
  ⟨t.val * 2048 + p.val, by have := t.isLt; have : cfg0.N = 16 := N_0; omega⟩

/-- Entry `(p, j)` of the first window's block at point `t` is the re-laid first input at `(2048 t + p, j)`. -/
theorem iblk0_apply (c : Dev nD) (t : Fin cfg0.N) (p : Fin 2048) (j : Fin 512) :
    iblk m c 0 t (ix2 p j) = V m c main_v0 (ix2 (chunkAt t p) j) := by
  unfold iblk
  show V m c main_v0 (((cfg0.win 0).blk t).view.emb (ix2 p j)) = _
  refine congrArg (V m c main_v0) (funext fun a => Fin.ext ?_)
  match a with
  | ⟨0, _⟩ =>
    show win0_0.index t (0 : Fin 2) * 2048 + 1 * p.val = t.val * 2048 + p.val
    rw [(idx_facts0 t).1]; omega
  | ⟨1, _⟩ =>
    show win0_0.index t (1 : Fin 2) * 512 + 1 * j.val = j.val
    rw [(idx_facts0 t).2]; omega

theorem iblk1_apply (c : Dev nD) (t : Fin cfg0.N) (p : Fin 2048) (j : Fin 512) :
    iblk m c 1 t (ix2 p j) = V m c main_v1 (ix2 (chunkAt t p) j) := by
  unfold iblk
  show V m c main_v1 (((cfg0.win 1).blk t).view.emb (ix2 p j)) = _
  refine congrArg (V m c main_v1) (funext fun a => Fin.ext ?_)
  match a with
  | ⟨0, _⟩ =>
    show win0_1.index t (0 : Fin 2) * 2048 + 1 * p.val = t.val * 2048 + p.val
    rw [(idx_facts1 t).1]; omega
  | ⟨1, _⟩ =>
    show win0_1.index t (1 : Fin 2) * 512 + 1 * j.val = j.val
    rw [(idx_facts1 t).2]; omega

/-- The halves of a block, at coordinates. -/
theorem halfLo_apply (x : Vec F S2048x512 .f32) (p : Fin 2048) (d : Fin 256) :
    halfLo x (ix2 p d) = x (ix2 p (⟨d.val, by omega⟩ : Fin 512)) := by
  unfold halfLo
  show x (rLo.idx (ix2 p d)) = _
  refine congrArg x (funext fun a => Fin.ext ?_)
  match a with
  | ⟨0, _⟩ => show 0 + 1 * p.val = p.val; omega
  | ⟨1, _⟩ => show 0 + 1 * d.val = d.val; omega

theorem halfHi_apply (x : Vec F S2048x512 .f32) (p : Fin 2048) (d : Fin 256) :
    halfHi x (ix2 p d) = x (ix2 p (⟨256 + d.val, by omega⟩ : Fin 512)) := by
  unfold halfHi
  show x (rHi.idx (ix2 p d)) = _
  refine congrArg x (funext fun a => Fin.ext ?_)
  match a with
  | ⟨0, _⟩ => show 0 + 1 * p.val = p.val; omega
  | ⟨1, _⟩ => show 256 + 1 * d.val = 256 + d.val; omega

/-! ### The four rows of a chunk, on the extended reals -/

section Rows
variable (mI : (ℓ : Loc nD τ sig) → Buf (Elt Ideal) ℓ) (c : Dev nD) (t : Fin cfg0.N) (p : Fin 2048)

/-- The two inputs as the launch finds them. -/
abbrev zi : NTXent.Arr := mI ((c : Thread nD τ).loc main_arg0)
abbrev zj : NTXent.Arr := mI ((c : Thread nD τ).loc main_arg1)

theorem row0 : rowAt (halfLo (iblk mI c 1 t)) p = NTXent.rep (zi mI c) (zj mI c) (chunkAt t p) 0 := by
  funext d
  unfold rowAt NTXent.rep NTXent.rowOf
  rw [halfLo_apply, iblk1_apply, V_main_v1, reshape_apply, dif_pos (by decide)]
  refine congrArg (zj mI c) (congrArg₂ ix2 (Fin.ext ?_) (Fin.ext ?_))
  · show 2 * (t.val * 2048 + p.val) + d.val / 256 = 2 * (t.val * 2048 + p.val) + 0; omega
  · show d.val % 256 = d.val; omega

theorem row1 : rowAt (halfHi (iblk mI c 1 t)) p = NTXent.rep (zi mI c) (zj mI c) (chunkAt t p) 1 := by
  funext d
  unfold rowAt NTXent.rep NTXent.rowOf
  rw [halfHi_apply, iblk1_apply, V_main_v1, reshape_apply, dif_pos (by decide)]
  refine congrArg (zj mI c) (congrArg₂ ix2 (Fin.ext ?_) (Fin.ext ?_))
  · show 2 * (t.val * 2048 + p.val) + (256 + d.val) / 256 = 2 * (t.val * 2048 + p.val) + 1; omega
  · show (256 + d.val) % 256 = d.val; omega

theorem row2 : rowAt (halfLo (iblk mI c 0 t)) p = NTXent.rep (zi mI c) (zj mI c) (chunkAt t p) 2 := by
  funext d
  unfold rowAt NTXent.rep NTXent.rowOf
  rw [halfLo_apply, iblk0_apply, V_main_v0, reshape_apply, dif_neg (by decide)]
  refine congrArg (zi mI c) (congrArg₂ ix2 (Fin.ext ?_) (Fin.ext ?_))
  · show 2 * (t.val * 2048 + p.val) + d.val / 256 = 2 * (t.val * 2048 + p.val) + (2 - 2); omega
  · show d.val % 256 = d.val; omega

theorem row3 : rowAt (halfHi (iblk mI c 0 t)) p = NTXent.rep (zi mI c) (zj mI c) (chunkAt t p) 3 := by
  funext d
  unfold rowAt NTXent.rep NTXent.rowOf
  rw [halfHi_apply, iblk0_apply, V_main_v0, reshape_apply, dif_neg (by decide)]
  refine congrArg (zi mI c) (congrArg₂ ix2 (Fin.ext ?_) (Fin.ext ?_))
  · show 2 * (t.val * 2048 + p.val) + (256 + d.val) / 256 = 2 * (t.val * 2048 + p.val) + (3 - 2); omega
  · show (256 + d.val) % 256 = d.val; omega

/-- The body's four losses of a chunk are the four row losses of the specification, the cosine being symmetric. -/
theorem chunkLoss_eq (za zb : NTXent.Arr) (n : Fin 32768) :
    chunkLoss (NTXent.rep za zb n 0) (NTXent.rep za zb n 1) (NTXent.rep za zb n 2) (NTXent.rep za zb n 3)
      = ∑ k : Fin 4, NTXent.loss za zb n k := by
  rw [Fin.sum_univ_four]
  unfold chunkLoss NTXent.loss
  simp only [NTXent.pos, NTXent.neg0, NTXent.neg1, Matrix.cons_val_zero, Matrix.cons_val_one, Matrix.cons_val_two, Matrix.cons_val_three,
    Matrix.head_cons, Matrix.tail_cons]
  rw [NTXent.cos_comm (NTXent.rep za zb n 1) (NTXent.rep za zb n 0), NTXent.cos_comm (NTXent.rep za zb n 2) (NTXent.rep za zb n 0),
    NTXent.cos_comm (NTXent.rep za zb n 2) (NTXent.rep za zb n 1), NTXent.cos_comm (NTXent.rep za zb n 3) (NTXent.rep za zb n 1),
    NTXent.cos_comm (NTXent.rep za zb n 3) (NTXent.rep za zb n 0), NTXent.cos_comm (NTXent.rep za zb n 3) (NTXent.rep za zb n 2)]

/-- THE POINT'S CONTRIBUTION, at every entry of its tile: the sum over the point's 2048 chunks of their four row losses. -/
theorem contrib_apply (r : Fin 8) (l : Fin 128) :
    contrib (F := Ideal) (iblk mI c 0 t) (iblk mI c 1 t) (ix2 r l)
      = ∑ p : Fin 2048, ∑ k : Fin 4, NTXent.loss (zi mI c) (zj mI c) (chunkAt t p) k := by
  show contribOf (F := Ideal) (halfLo (iblk mI c 1 t)) (halfHi (iblk mI c 1 t)) (halfLo (iblk mI c 0 t)) (halfHi (iblk mI c 0 t)) (ix2 r l) = _
  rw [contribOf_apply]
  refine Finset.sum_congr rfl fun p _ => ?_
  rw [row0, row1, row2, row3, chunkLoss_eq]

end Rows

end Cert.KernelIdeal.KBlocks

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.KAcc.lean ====
/-
  The accumulated tile of a row of the grid is the sum of its eight points' contributions, and the two rows' tiles
  add up to the sum of all row losses.

  The accumulator holds the first point's contribution after the first point of a row of the grid and, after each
  later point, what it held plus that point's contribution; after the eighth it holds the sum of the eight. Each
  contribution is the sum over the point's 2048 chunks of their four row losses, the sixteen points' chunks are the
  32768 chunks in order, and addition on the extended reals is commutative and associative: the two accumulated
  tiles add up to `total`.
-/
import proofs.«165558_j6227702579662_2_alg».proof.Proof.KBlocks
import proofs.«165558_j6227702579662_2_alg».proof.Proof.LibBlockSum

set_option maxRecDepth 16384

noncomputable section

namespace Cert.KernelIdeal.KAcc

open Cert Cert.KernelIdeal Cert.KernelIdeal.Gen Cert.KernelIdeal.KBody Cert.KernelIdeal.KPay Cert.KernelIdeal.KBlocks
open Idealize.ShloMosaic Idealize.ShloMosaic.TcCoe Idealize.ShloMosaic.ValueIdx Idealize.SL.Sem

variable (mI : (ℓ : Loc nD τ sig) → Buf (Elt Ideal) ℓ) (c : Dev nD) (r : Fin 8) (l : Fin 128)

/-- The contribution of the point at position `n`, at entry `(r, l)` of its tile. -/
def cAt (n : ℕ) (hn : n < cfg0.N) : EReal := contrib (F := Ideal) (iblk mI c 0 ⟨n, hn⟩) (iblk mI c 1 ⟨n, hn⟩) (ix2 r l)

theorem acc_zero (hn : 0 < cfg0.N) : accAtN mI c 0 hn (ix2 r l) = cAt mI c r l 0 hn := by
  show accFirst (iblk mI c 0 ⟨0, hn⟩) (iblk mI c 1 ⟨0, hn⟩) (ix2 r l) = _
  rw [accFirst_eq, shapeCast_self]; rfl

theorem acc_first (n : ℕ) (hn : n + 1 < cfg0.N) (h : (n + 1) % 8 = 0) :
    accAtN mI c (n + 1) hn (ix2 r l) = cAt mI c r l (n + 1) hn := by
  have e : accAtN mI c (n + 1) hn = accFirst (iblk mI c 0 ⟨n + 1, hn⟩) (iblk mI c 1 ⟨n + 1, hn⟩) := if_pos h
  rw [e, accFirst_eq, shapeCast_self]; rfl

theorem acc_next (n : ℕ) (hn : n + 1 < cfg0.N) (h : ¬(n + 1) % 8 = 0) :
    accAtN mI c (n + 1) hn (ix2 r l) = accAtN mI c n (Nat.lt_of_succ_lt hn) (ix2 r l) + cAt mI c r l (n + 1) hn := by
  have e : accAtN mI c (n + 1) hn
      = accNext (iblk mI c 0 ⟨n + 1, hn⟩) (iblk mI c 1 ⟨n + 1, hn⟩) (accAtN mI c n (Nat.lt_of_succ_lt hn)) := if_neg h
  rw [e, accNext_eq, shapeCast_self]; rfl

/-- After the eighth point of the first row of the grid the accumulator holds the eight contributions' sum. -/
theorem acc7 (h7 : 7 < cfg0.N) :
    accAtN mI c 7 h7 (ix2 r l)
      = cAt mI c r l 0 (by decide) + cAt mI c r l 1 (by decide) + cAt mI c r l 2 (by decide) + cAt mI c r l 3 (by decide)
        + cAt mI c r l 4 (by decide) + cAt mI c r l 5 (by decide) + cAt mI c r l 6 (by decide) + cAt mI c r l 7 (by decide) := by
  have a0 := acc_zero mI c r l (by decide)
  have a1 := acc_next mI c r l 0 (by decide) (by decide)
  have a2 := acc_next mI c r l 1 (by decide) (by decide)
  have a3 := acc_next mI c r l 2 (by decide) (by decide)
  have a4 := acc_next mI c r l 3 (by decide) (by decide)
  have a5 := acc_next mI c r l 4 (by decide) (by decide)
  have a6 := acc_next mI c r l 5 (by decide) (by decide)
  have a7 := acc_next mI c r l 6 (by decide) (by decide)
  rw [a7, a6, a5, a4, a3, a2, a1, a0]

/-- After the eighth point of the second row it holds that row's eight contributions' sum. -/
theorem acc15 (h15 : 15 < cfg0.N) :
    accAtN mI c 15 h15 (ix2 r l)
      = cAt mI c r l 8 (by decide) + cAt mI c r l 9 (by decide) + cAt mI c r l 10 (by decide) + cAt mI c r l 11 (by decide)
        + cAt mI c r l 12 (by decide) + cAt mI c r l 13 (by decide) + cAt mI c r l 14 (by decide) + cAt mI c r l 15 (by decide) := by
  have a0 := acc_first mI c r l 7 (by decide) (by decide)
  have a1 := acc_next mI c r l 8 (by decide) (by decide)
  have a2 := acc_next mI c r l 9 (by decide) (by decide)
  have a3 := acc_next mI c r l 10 (by decide) (by decide)
  have a4 := acc_next mI c r l 11 (by decide) (by decide)
  have a5 := acc_next mI c r l 12 (by decide) (by decide)
  have a6 := acc_next mI c r l 13 (by decide) (by decide)
  have a7 := acc_next mI c r l 14 (by decide) (by decide)
  rw [a7, a6, a5, a4, a3, a2, a1, a0]

/-- A sum over sixteen indices, written out as two rows of eight. -/
theorem sum16 {β : Type} [AddCommMonoid β] (f : Fin 16 → β) :
    ∑ t, f t = (f 0 + f 1 + f 2 + f 3 + f 4 + f 5 + f 6 + f 7) + (f 8 + f 9 + f 10 + f 11 + f 12 + f 13 + f 14 + f 15) := by
  rw [show (∑ t : Fin 16, f t) = ∑ t : Fin (2 * 8), f t from rfl, Cert.Lib.BlockSum.sum_blocks 2 8, Fin.sum_univ_two,
    Fin.sum_univ_eight, Fin.sum_univ_eight]
  rfl

/-- The contribution of the point at position `n` is the sum of the row losses of its 2048 chunks. -/
theorem cAt_eq (n : ℕ) (hn : n < cfg0.N) :
    cAt mI c r l n hn = ∑ p : Fin 2048, ∑ k : Fin 4, NTXent.loss (zi mI c) (zj mI c) (chunkAt ⟨n, hn⟩ p) k :=
  contrib_apply mI c ⟨n, hn⟩ r l

/-- THE TWO ACCUMULATED TILES add up to the sum of all row losses. -/
theorem acc_total (h7 : 7 < cfg0.N) (h15 : 15 < cfg0.N) :
    accAtN mI c 7 h7 (ix2 r l) + accAtN mI c 15 h15 (ix2 r l) = NTXent.total (zi mI c) (zj mI c) := by
  rw [acc7, acc15]
  simp only [cAt_eq]
  unfold NTXent.total
  rw [show (∑ n : Fin 32768, ∑ k : Fin 4, NTXent.loss (zi mI c) (zj mI c) n k)
      = ∑ n : Fin (16 * 2048), ∑ k : Fin 4, NTXent.loss (zi mI c) (zj mI c) n k from rfl,
    Cert.Lib.BlockSum.sum_blocks 16 2048, sum16]
  rfl

end Cert.KernelIdeal.KAcc

end
-- ==== Proof.KFinal.lean ====
import proofs.«165558_j6227702579662_2_alg».proof.Proof.KBody
import Idealize.ShloMosaic.Lib.Pipeline.Value
import Idealize.ShloMosaic.Lib.ValueIdx

set_option maxRecDepth 16384

noncomputable section

namespace Cert.KernelIdeal.KBody

open Idealize.ShloMosaic Idealize.ShloMosaic.TcCoe
open Idealize.SL Idealize.SL.Sem
open Idealize.ShloMosaic.Pipeline (Dat Cfg Window)
open Cert.KernelIdeal.Gen
open Idealize.ShloMosaic.ValueIdx

variable {F : FTy → Type} [FloatOps F]
variable (m : (ℓ : Loc nD τ sig) → Buf (Elt F) ℓ)

/-- What the write-back at a point writes: the accumulator's contents after it (the window is uncut). -/
theorem flushed2 (c : Dev nD) (t : Fin cfg0.N) : (dats m 0 c).flushed 2 t = accAt m c t := by
  show (cfg0.win 2).cut (grid0.coords t) ((dats m 0 c).after 2 t) = _
  rw [after2_eq]
  rfl

/-- The two points that write a block back (7 and 15) write different blocks. -/
theorem index2_ne : ∀ t t' : Fin cfg0.N, t.val % 8 = 7 → t'.val % 8 = 7 → t ≠ t' → win0_2.index t 0 ≠ win0_2.index t' 0 := by
  decide +kernel

/-- So the written-back blocks are pairwise disjoint in the array. -/
theorem disj2 : ∀ t t' : Fin cfg0.N, (cfg0.win 2).flush t = true → (cfg0.win 2).flush t' = true → t ≠ t' →
    Disjoint ((cfg0.win 2).blk t).view.set ((cfg0.win 2).blk t').view.set := by
  intro t t' hf hf' hne
  have h := Window.disjoint_rect win0_2 (u := t) (u' := t') (fun e => index2_ne t t' ((flush0_2 t).mp hf) ((flush0_2 t').mp hf') hne (congrFun e 0))
  show Disjoint ((View.whole main_v2).slice (win0_2.rect t)).set ((View.whole main_v2).slice (win0_2.rect t')).set
  rw [View.set_slice_whole, View.set_slice_whole]
  exact h

/-- Block `t` of the result array after the run, for a point that writes its block back (≡ 7 mod 8), is the
    accumulator's contents after that point. -/
theorem final2_blk (c : Dev nD) (t : Fin cfg0.N) (h : t.val % 8 = 7) :
    ((cfg0.win 2).blk t).view.read (Elt F) ((dats m 0 c).arrAt 2 cfg0.N) = accAt m c t :=
  ((dats m 0 c).read_blk_arrAt_eq_flushed 2 disj2 cfg0.N t t.isLt ((flush0_2 t).mpr h)).trans (flushed2 m c t)

/-- Row 0, lane 0 of the result array: the first row of the grid's total (after point 7). -/
theorem final2_00 (c : Dev nD) :
    (dats m 0 c).arrAt 2 cfg0.N (ix2 (0 : Fin 16) (0 : Fin 128)) = accAt m c t0_7 (ix2 (0 : Fin 8) (0 : Fin 128)) := by
  have h := congrFun (final2_blk m c t0_7 (by decide)) (ix2 (0 : Fin 8) (0 : Fin 128))
  rw [View.read_apply] at h
  have e : ((cfg0.win 2).blk t0_7).view.emb (ix2 (0 : Fin 8) (0 : Fin 128)) = ix2 (0 : Fin 16) (0 : Fin 128) := by
    funext a; fin_cases a <;> rfl
  rw [e] at h
  exact h

/-- Row 8, lane 0 of the result array: the second row of the grid's total (after point 15). -/
theorem final2_80 (c : Dev nD) :
    (dats m 0 c).arrAt 2 cfg0.N (ix2 (8 : Fin 16) (0 : Fin 128)) = accAt m c t0_15 (ix2 (0 : Fin 8) (0 : Fin 128)) := by
  have h := congrFun (final2_blk m c t0_15 (by decide)) (ix2 (0 : Fin 8) (0 : Fin 128))
  rw [View.read_apply] at h
  have e : ((cfg0.win 2).blk t0_15).view.emb (ix2 (0 : Fin 8) (0 : Fin 128)) = ix2 (8 : Fin 16) (0 : Fin 128) := by
    funext a; fin_cases a <;> rfl
  rw [e] at h
  exact h

end Cert.KernelIdeal.KBody

end
-- ==== Proof.KValue.lean ====
/-
  The kernel's result, as a function of the two inputs.

  After the launch the output array holds, in each of its two [8, 128] tiles, the tile accumulated over that row of
  the grid. The host lines after the launch take entries (0, 0) and (8, 0) — one from each tile —, add them and divide by
  the word 65536. The two accumulated tiles add up to the sum of all row losses: the kernel's result is that sum over
  the word 65536.
-/
import proofs.«165558_j6227702579662_2_alg».proof.Proof.KAcc
import proofs.«165558_j6227702579662_2_alg».proof.Proof.KFinal
import Idealize.ShloMosaic.Lib.StableHlo.Run

set_option maxRecDepth 16384

noncomputable section
namespace Cert.KernelIdeal.KValue
open Cert Cert.KernelIdeal Cert.KernelIdeal.Gen Cert.KernelIdeal.KBody
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-- The host lines after the launch, as one function of the output array. -/
def tail (A2 : FVec F S16x128 .f32) : FVec F S_ .f32 :=
  Host.divf (addf (shapeCast S_ (extractStridedSlice S1x1 ![0, 0] A2 slices_S16x128_S1x1_0_0) shapeCasts_S1x1_S_)
                  (shapeCast S_ (extractStridedSlice S1x1 ![8, 0] A2 slices_S16x128_S1x1_8_0) shapeCasts_S1x1_S_))
            (constant S_ .f32 0x47800000#32)

/-- What the lines after the launch leave in the result buffer. -/
theorem tail_eq (c : Dev nD) :
    Pipeline.afterTail₀ cfgs (dats m) 0 (V0 m) [hostOps1] c main_v8 = tail ((dats m 0 c).arrAt 2 cfg0.N) := by
  unfold Pipeline.afterTail₀
  show StableHlo.after hostOps1 _ (Proc.devRef .tc main_v8) = _
  after_results
  have e2 : Pipeline.withArrays (cfgs 0).spec c (V0 m c) (fun w => (dats m 0 c).arrAt w (cfgs 0).N) (Proc.tc.devRef main_v2)
      = (dats m 0 c).arrAt 2 cfg0.N :=
    Pipeline.withArrays_arr spec0 launch0.win.arr_inj c (V0 m c) (fun w => (dats m 0 c).arrAt w (cfgs 0).N) 2
  rw [e2]
  rfl

/-- The kernel's run with its result named. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v8) = tail ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The host lines after the launch, on the extended reals: entries (0,0) and (8,0) of the output added, over the word 65536. -/
theorem tail_apply (A2 : FVec Ideal S16x128 .f32) :
    tail (F := Ideal) A2 ix0 = Ideal.div (A2 (ix2 (0 : Fin 16) (0 : Fin 128)) + A2 (ix2 (8 : Fin 16) (0 : Fin 128))) (Ideal.ofBits .f32 0x47800000#32) := by
  show Ideal.div (shapeCast S_ (extractStridedSlice S1x1 ![0, 0] A2 slices_S16x128_S1x1_0_0) shapeCasts_S1x1_S_ ix0
      + shapeCast S_ (extractStridedSlice S1x1 ![8, 0] A2 slices_S16x128_S1x1_8_0) shapeCasts_S1x1_S_ ix0) _ = _
  rw [shapeCast_apply _ shapeCasts_S1x1_S_ ix0 (ix2 (0 : Fin 1) (0 : Fin 1)) rfl,
    shapeCast_apply _ shapeCasts_S1x1_S_ ix0 (ix2 (0 : Fin 1) (0 : Fin 1)) rfl,
    extractStridedSlice_apply ![0, 0] A2 slices_S16x128_S1x1_0_0 (ix2 (0 : Fin 1) (0 : Fin 1)) (ix2 (0 : Fin 16) (0 : Fin 128))
      (by intro a; fin_cases a <;> rfl),
    extractStridedSlice_apply ![8, 0] A2 slices_S16x128_S1x1_8_0 (ix2 (0 : Fin 1) (0 : Fin 1)) (ix2 (8 : Fin 16) (0 : Fin 128))
      (by intro a; fin_cases a <;> rfl)]
  rfl

/-- THE KERNEL'S RESULT on the extended reals: the sum of all row losses over the word 65536. -/
theorem result_eq (mI : (ℓ : Loc nD τ sig) → Buf (Elt Ideal) ℓ) (c : Dev nD) :
    tail (F := Ideal) ((dats mI 0 c).arrAt 2 cfg0.N)
      = fun _ => Ideal.div (NTXent.total (KBlocks.zi mI c) (KBlocks.zj mI c)) (Ideal.ofBits .f32 0x47800000#32) := by
  funext i
  rw [eq_ix0 i, tail_apply, final2_00, final2_80]
  show Ideal.div (accAtN mI c 7 (by decide) (ix2 (0 : Fin 8) (0 : Fin 128)) + accAtN mI c 15 (by decide) (ix2 (0 : Fin 8) (0 : Fin 128))) _ = _
  rw [KAcc.acc_total]

end Cert.KernelIdeal.KValue
end
-- ==== Proof.RefRun.lean ====
/-
  The reference program's run, read back. Its @main is a straight line of seventy-nine host operations once the
  three module-local functions (the row norm, the take-along-axis and the log-softmax) are unfolded at their
  calls: `ops` lists them, `main_eq` says @main is that line, and `run` says every weakly fair execution
  terminates with the result buffer at `result` of the two argument arrays' launch contents, the arguments
  unchanged. `result` composes the operations' pure functions stage by stage:

    reps    the chunks of four rows: rows 2n, 2n+1 of the second argument, then rows 2n, 2n+1 of the first;
    ssq     each row's sum of squares (kept as a trailing axis of size one);
    nrm     max(sqrt ssq, 1e-8);
    repsN   reps / nrm, the norm broadcast along the features;
    sim     the 4 x 4 matrix of inner products of a chunk's normalised rows;
    pos     the entries (0,2), (1,3), (2,0), (3,1) of sim;
    idx     the literal index table [[1,3],[0,2],[1,3],[0,2]], a negative entry wrapped by 4;
    mask    whether each (wrapped) entry lies in [0, 3];
    negs    sim gathered along its last axis at idx where mask holds, NaN elsewhere;
    logits  (pos, negs) side by side, divided by 1/2;
    lsm     the log-softmax of logits along the last axis: with M = max(-inf, max_j logits_j),
            (logits - M) - log (sum_j exp (logits_j - M));
    loss    minus the first column of lsm;
    result  the sum of loss over all chunks and rows, divided by 65536.
-/
import proofs.«165558_j6227702579662_2_alg».proof.Defs
import proofs.«165558_j6227702579662_2_alg».proof.Proof.Gen.ReferenceIdeal
import proofs.«165558_j6227702579662_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value, stage by stage -/

/-- The chunks of four rows: rows `2n`, `2n+1` of `x1`, then rows `2n`, `2n+1` of `x0`. -/
def reps (x0 x1 : FVec F S65536x256 .f32) : FVec F S32768x4x256 .f32 :=
  concatenate S32768x4x256 1
    [⟨S32768x2x256, shapeCast S32768x2x256 x1 shapeCasts_S65536x256_S32768x2x256⟩,
     ⟨S32768x2x256, shapeCast S32768x2x256 x0 shapeCasts_S65536x256_S32768x2x256⟩]
    concatenates_S32768x2x256_S32768x2x256_S32768x4x256_d1

/-- Each row's sum of squares over the features, from zero. -/
def ssq (x0 x1 : FVec F S65536x256 .f32) : FVec F S32768x4x1 .f32 :=
  broadcastInDim S32768x4x1 ![0, 1] bcast_S32768x4_S32768x4x1_0_1
    (Host.reduceAdd (mulf (reps x0 x1) (reps x0 x1)) (constant S_ .f32 0x00000000#32)
      reducesTo_S32768x4x256_S32768x4_d2 h_S_)

/-- Each row's norm, bounded below by `1e-8`. -/
def nrm (x0 x1 : FVec F S65536x256 .f32) : FVec F S32768x4x1 .f32 :=
  maximumf (Host.sqrt (ssq x0 x1))
    (broadcastInDim S32768x4x1 ![] bcast_S_S32768x4x1 (constant S_ .f32 0x322BCC77#32))

/-- The normalised rows. -/
def repsN (x0 x1 : FVec F S65536x256 .f32) : FVec F S32768x4x256 .f32 :=
  Host.divf (reps x0 x1) (broadcastInDim S32768x4x256 ![0, 1, 2] bcast_S32768x4x1_S32768x4x256_0_1_2 (nrm x0 x1))

/-- The inner products of a chunk's normalised rows, pair by pair. -/
def sim (x0 x1 : FVec F S65536x256 .f32) : FVec F S32768x4x4 .f32 :=
  Host.dotGeneral dot_S32768x4x256_S32768x4x256_S32768x4x4_2_2_1_1_0_0 none (repsN x0 x1) (repsN x0 x1)

/-- One entry `(r, k)` of every chunk's matrix, as a column. -/
def entry (off : Fin 3 → Nat) (h : S32768x4x4.Slices off S32768x1x1) (s : FVec F S32768x4x4 .f32) : FVec F S32768x1 .f32 :=
  broadcastInDim S32768x1 ![0] bcast_S32768_S32768x1_0
    (shapeCast S32768 (extractStridedSlice S32768x1x1 off s h) shapeCasts_S32768x1x1_S32768)

/-- The positives: the entries `(0,2)`, `(1,3)`, `(2,0)`, `(3,1)`. -/
def pos (x0 x1 : FVec F S65536x256 .f32) : FVec F S32768x4 .f32 :=
  concatenate S32768x4 1
    [⟨S32768x1, entry ![0, 0, 2] slices_S32768x4x4_S32768x1x1_0_0_2 (sim x0 x1)⟩,
     ⟨S32768x1, entry ![0, 1, 3] slices_S32768x4x4_S32768x1x1_0_1_3 (sim x0 x1)⟩,
     ⟨S32768x1, entry ![0, 2, 0] slices_S32768x4x4_S32768x1x1_0_2_0 (sim x0 x1)⟩,
     ⟨S32768x1, entry ![0, 3, 1] slices_S32768x4x4_S32768x1x1_0_3_1 (sim x0 x1)⟩]
    concatenates_S32768x1_S32768x1_S32768x1_S32768x1_S32768x4_d1

/-- The literal index table with a leading axis of size one. -/
def tbl : IVec S1x4x2 32 :=
  broadcastInDim S1x4x2 ![1, 2] bcast_S4x2_S1x4x2_1_2 (fun i => lit0 (S4x2.rowMajor i))

/-- The table with a negative entry wrapped by the axis' size 4, as the gather's start indices. -/
def idx : IVec S4x2x1 32 :=
  shapeCast S4x2x1
    (select (cmpi .slt tbl (broadcastInDim S1x4x2 ![] bcast_S_S1x4x2 (constantI S_ 32 0#32)))
      (addi tbl (broadcastInDim S1x4x2 ![] bcast_S_S1x4x2 (constantI S_ 32 4#32))) tbl)
    shapeCasts_S1x4x2_S4x2x1

/-- Whether each start index lies in `[0, 3]`. -/
def mask : IVec S4x2 1 :=
  Host.reduce IntOp.andi
    (andi (cmpi .sge idx (broadcastInDim S4x2x1 ![] bcast_S_S4x2x1 (constantI S_ 32 0#32)))
      (cmpi .sle idx (broadcastInDim S4x2x1 ![0, 1, 2] bcast_S1x1x1_S4x2x1_0_1_2
        (broadcastInDim S1x1x1 ![2] bcast_S1_S1x1x1_2 (constantI S1 32 3#32)))))
    (constantI S_ 1 1#1) reducesTo_S4x2x1_S4x2_d2 h_S_

/-- The negatives: the matrix gathered along its last axis at the table, NaN where an index is out of range. -/
def negs (x0 x1 : FVec F S65536x256 .f32) : FVec F S32768x4x2 .f32 :=
  select (broadcastInDim S32768x4x2 ![1, 2] bcast_S4x2_S32768x4x2_1_2 mask)
    (Host.gather gather_S32768x4x4_S4x2x1_S32768x4x2_0_2_1_0_2_2_3276811 (sim x0 x1) idx)
    (broadcastInDim S32768x4x2 ![] bcast_S_S32768x4x2 (constant S_ .f32 0x7FC00000#32))

/-- The logits: positive first, then the two negatives, over the temperature `1/2`. -/
def logits (x0 x1 : FVec F S65536x256 .f32) : FVec F S32768x4x3 .f32 :=
  Host.divf
    (concatenate S32768x4x3 2
      [⟨S32768x4x1, broadcastInDim S32768x4x1 ![0, 1] bcast_S32768x4_S32768x4x1_0_1 (pos x0 x1)⟩,
       ⟨S32768x4x2, negs x0 x1⟩]
      concatenates_S32768x4x1_S32768x4x2_S32768x4x3_d2)
    (broadcastInDim S32768x4x3 ![] bcast_S_S32768x4x3 (constant S_ .f32 0x3F000000#32))

/-- A row of logits minus its maximum (the maximum taken from `-inf`, and once more against `-inf`). -/
def shifted (l : FVec F S32768x4x3 .f32) : FVec F S32768x4x3 .f32 :=
  subf l
    (broadcastInDim S32768x4x3 ![0, 1, 2] bcast_S32768x4x1_S32768x4x3_0_1_2
      (broadcastInDim S32768x4x1 ![0, 1] bcast_S32768x4_S32768x4x1_0_1
        (maximumf (broadcastInDim S32768x4 ![] bcast_S_S32768x4 (constant S_ .f32 0xFF800000#32))
          (Host.reduce FloatOps.maximumf l (constant S_ .f32 0xFF800000#32) reducesTo_S32768x4x3_S32768x4_d2 h_S_))))

/-- The log-softmax along the last axis. -/
def lsm (l : FVec F S32768x4x3 .f32) : FVec F S32768x4x3 .f32 :=
  subf (shifted l)
    (broadcastInDim S32768x4x3 ![0, 1, 2] bcast_S32768x4x1_S32768x4x3_0_1_2
      (Host.log (broadcastInDim S32768x4x1 ![0, 1] bcast_S32768x4_S32768x4x1_0_1
        (Host.reduceAdd (Host.exp (shifted l)) (constant S_ .f32 0x00000000#32) reducesTo_S32768x4x3_S32768x4_d2 h_S_))))

/-- The per-row loss: minus the log-softmax's first column. -/
def loss (x0 x1 : FVec F S65536x256 .f32) : FVec F S32768x4 .f32 :=
  Host.negf (shapeCast S32768x4
    (extractStridedSlice S32768x4x1 ![0, 0, 0] (lsm (logits x0 x1)) slices_S32768x4x3_S32768x4x1_0_0_0)
    shapeCasts_S32768x4x1_S32768x4)

/-- What the reference computes from its two argument arrays: the losses' sum from zero, over 65536. -/
def result (x0 x1 : FVec F S65536x256 .f32) : FVec F S_ .f32 :=
  Host.divf (Host.reduceAdd (loss x0 x1) (constant S_ .f32 0x00000000#32) reducesTo_S32768x4_S_d0_1 h_S_)
    (constant S_ .f32 0x47800000#32)

/-! ## The program as a list -/

/-- @main's seventy-nine operations in order, the three calls unfolded into their records' buffers. -/
abbrev ops : List (HloOp τ sig (Elt F)) :=
  [ nullary main_c (fun i => lit0 (S4x2.rowMajor i)),
    reshape main_arg0 main_v0 rfl shapeCasts_S65536x256_S32768x2x256,
    reshape main_arg1 main_v1 rfl shapeCasts_S65536x256_S32768x2x256,
    binary main_v1 main_v0 main_v2 ((fun a b => concatenate S32768x4x256 1 [⟨S32768x2x256, a⟩, ⟨S32768x2x256, b⟩] concatenates_S32768x2x256_S32768x2x256_S32768x4x256_d1) : (⟨S32768x2x256, .f32⟩ : BufTy).Contents (Elt F) → (⟨S32768x2x256, .f32⟩ : BufTy).Contents (Elt F) → (⟨S32768x4x256, .f32⟩ : BufTy).Contents (Elt F)),
    -- the row norm
    TRef.binary (TRef.of main_v2 : TRef sig ⟨S32768x4x256, .f32⟩) (TRef.of main_v2 : TRef sig ⟨S32768x4x256, .f32⟩) main_call0.v0 mulf,
    TRef.nullary main_call0.cst (constant S_ .f32 0x00000000#32),
    TRef.binary main_call0.v0 main_call0.cst main_call0.v1 (fun x v => Host.reduceAdd x v reducesTo_S32768x4x256_S32768x4_d2 h_S_),
    TRef.unary main_call0.v1 main_call0.v2 (broadcastInDim S32768x4x1 ![0, 1] bcast_S32768x4_S32768x4x1_0_1),
    TRef.unary main_call0.v2 main_call0.v3 Host.sqrt,
    nullary main_cst (constant S_ .f32 0x322BCC77#32),
    unary main_cst main_v4 (broadcastInDim S32768x4x1 ![] bcast_S_S32768x4x1 : (⟨S_, .f32⟩ : BufTy).Contents (Elt F) → (⟨S32768x4x1, .f32⟩ : BufTy).Contents (Elt F)),
    binary main_v3 main_v4 main_v5 (maximumf : (⟨S32768x4x1, .f32⟩ : BufTy).Contents (Elt F) → (⟨S32768x4x1, .f32⟩ : BufTy).Contents (Elt F) → (⟨S32768x4x1, .f32⟩ : BufTy).Contents (Elt F)),
    unary main_v5 main_v6 (broadcastInDim S32768x4x256 ![0, 1, 2] bcast_S32768x4x1_S32768x4x256_0_1_2 : (⟨S32768x4x1, .f32⟩ : BufTy).Contents (Elt F) → (⟨S32768x4x256, .f32⟩ : BufTy).Contents (Elt F)),
    binary main_v2 main_v6 main_v7 (Host.divf : (⟨S32768x4x256, .f32⟩ : BufTy).Contents (Elt F) → (⟨S32768x4x256, .f32⟩ : BufTy).Contents (Elt F) → (⟨S32768x4x256, .f32⟩ : BufTy).Contents (Elt F)),
    binary main_v7 main_v7 main_v8 ((fun l r => Host.dotGeneral dot_S32768x4x256_S32768x4x256_S32768x4x4_2_2_1_1_0_0 none l r) : (⟨S32768x4x256, .f32⟩ : BufTy).Contents (Elt F) → (⟨S32768x4x256, .f32⟩ : BufTy).Contents (Elt F) → (⟨S32768x4x4, .f32⟩ : BufTy).Contents (Elt F)),
    unary main_v8 main_v9 ((extractStridedSlice S32768x1x1 ![0, 0, 2] · slices_S32768x4x4_S32768x1x1_0_0_2) : (⟨S32768x4x4, .f32⟩ : BufTy).Contents (Elt F) → (⟨S32768x1x1, .f32⟩ : BufTy).Contents (Elt F)),
    reshape main_v9 main_v10 rfl shapeCasts_S32768x1x1_S32768,
    unary main_v8 main_v11 ((extractStridedSlice S32768x1x1 ![0, 1, 3] · slices_S32768x4x4_S32768x1x1_0_1_3) : (⟨S32768x4x4, .f32⟩ : BufTy).Contents (Elt F) → (⟨S32768x1x1, .f32⟩ : BufTy).Contents (Elt F)),
    reshape main_v11 main_v12 rfl shapeCasts_S32768x1x1_S32768,
    unary main_v8 main_v13 ((extractStridedSlice S32768x1x1 ![0, 2, 0] · slices_S32768x4x4_S32768x1x1_0_2_0) : (⟨S32768x4x4, .f32⟩ : BufTy).Contents (Elt F) → (⟨S32768x1x1, .f32⟩ : BufTy).Contents (Elt F)),
    reshape main_v13 main_v14 rfl shapeCasts_S32768x1x1_S32768,
    unary main_v8 main_v15 ((extractStridedSlice S32768x1x1 ![0, 3, 1] · slices_S32768x4x4_S32768x1x1_0_3_1) : (⟨S32768x4x4, .f32⟩ : BufTy).Contents (Elt F) → (⟨S32768x1x1, .f32⟩ : BufTy).Contents (Elt F)),
    reshape main_v15 main_v16 rfl shapeCasts_S32768x1x1_S32768,
    unary main_v10 main_v17 (broadcastInDim S32768x1 ![0] bcast_S32768_S32768x1_0 : (⟨S32768, .f32⟩ : BufTy).Contents (Elt F) → (⟨S32768x1, .f32⟩ : BufTy).Contents (Elt F)),
    unary main_v12 main_v18 (broadcastInDim S32768x1 ![0] bcast_S32768_S32768x1_0 : (⟨S32768, .f32⟩ : BufTy).Contents (Elt F) → (⟨S32768x1, .f32⟩ : BufTy).Contents (Elt F)),
    unary main_v14 main_v19 (broadcastInDim S32768x1 ![0] bcast_S32768_S32768x1_0 : (⟨S32768, .f32⟩ : BufTy).Contents (Elt F) → (⟨S32768x1, .f32⟩ : BufTy).Contents (Elt F)),
    unary main_v16 main_v20 (broadcastInDim S32768x1 ![0] bcast_S32768_S32768x1_0 : (⟨S32768, .f32⟩ : BufTy).Contents (Elt F) → (⟨S32768x1, .f32⟩ : BufTy).Contents (Elt F)),
    nary ![main_v17, main_v18, main_v19, main_v20] main_v21 (fun u => concatenate S32768x4 1 [⟨S32768x1, u 0⟩, ⟨S32768x1, u 1⟩, ⟨S32768x1, u 2⟩, ⟨S32768x1, u 3⟩] concatenates_S32768x1_S32768x1_S32768x1_S32768x1_S32768x4_d1),
    unary main_c main_v22 (broadcastInDim S1x4x2 ![1, 2] bcast_S4x2_S1x4x2_1_2 : (⟨S4x2, .i32⟩ : BufTy).Contents (Elt F) → (⟨S1x4x2, .i32⟩ : BufTy).Contents (Elt F)),
    -- the take along the last axis
    TRef.nullary main_call1.c (constantI S_ 32 0#32),
    TRef.unary main_call1.c main_call1.v0 (broadcastInDim S1x4x2 ![] bcast_S_S1x4x2),
    TRef.binary (TRef.of main_v22 : TRef sig ⟨S1x4x2, .i32⟩) main_call1.v0 main_call1.v1 (cmpi .slt),
    TRef.nullary main_call1.c_0 (constantI S_ 32 4#32),
    TRef.unary main_call1.c_0 main_call1.v2 (broadcastInDim S1x4x2 ![] bcast_S_S1x4x2),
    TRef.binary (TRef.of main_v22 : TRef sig ⟨S1x4x2, .i32⟩) main_call1.v2 main_call1.v3 addi,
    TRef.ternary main_call1.v1 main_call1.v3 (TRef.of main_v22 : TRef sig ⟨S1x4x2, .i32⟩) main_call1.v4 select,
    TRef.reshape main_call1.v4 main_call1.v5 rfl shapeCasts_S1x4x2_S4x2x1,
    TRef.nullary main_call1.c_1 (constantI S1 32 3#32),
    TRef.nullary main_call1.c_2 (constantI S_ 32 0#32),
    TRef.unary main_call1.c_2 main_call1.v6 (broadcastInDim S4x2x1 ![] bcast_S_S4x2x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x2x1 ![0, 1, 2] bcast_S1x1x1_S4x2x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x2x1_S4x2_d2 h_S_),
    TRef.binary (TRef.of main_v8 : TRef sig ⟨S32768x4x4, .f32⟩) main_call1.v5 main_call1.v13 (fun x i => Host.gather gather_S32768x4x4_S4x2x1_S32768x4x2_0_2_1_0_2_2_3276811 x i),
    TRef.unary main_call1.v12 main_call1.v14 (broadcastInDim S32768x4x2 ![1, 2] bcast_S4x2_S32768x4x2_1_2),
    TRef.nullary main_call1.cst (constant S_ .f32 0x7FC00000#32),
    TRef.unary main_call1.cst main_call1.v15 (broadcastInDim S32768x4x2 ![] bcast_S_S32768x4x2),
    TRef.ternary main_call1.v14 main_call1.v13 main_call1.v15 main_call1.v16 select,
    unary main_v21 main_v24 (broadcastInDim S32768x4x1 ![0, 1] bcast_S32768x4_S32768x4x1_0_1 : (⟨S32768x4, .f32⟩ : BufTy).Contents (Elt F) → (⟨S32768x4x1, .f32⟩ : BufTy).Contents (Elt F)),
    binary main_v24 main_v23 main_v25 ((fun a b => concatenate S32768x4x3 2 [⟨S32768x4x1, a⟩, ⟨S32768x4x2, b⟩] concatenates_S32768x4x1_S32768x4x2_S32768x4x3_d2) : (⟨S32768x4x1, .f32⟩ : BufTy).Contents (Elt F) → (⟨S32768x4x2, .f32⟩ : BufTy).Contents (Elt F) → (⟨S32768x4x3, .f32⟩ : BufTy).Contents (Elt F)),
    nullary main_cst_0 (constant S_ .f32 0x3F000000#32),
    unary main_cst_0 main_v26 (broadcastInDim S32768x4x3 ![] bcast_S_S32768x4x3 : (⟨S_, .f32⟩ : BufTy).Contents (Elt F) → (⟨S32768x4x3, .f32⟩ : BufTy).Contents (Elt F)),
    binary main_v25 main_v26 main_v27 (Host.divf : (⟨S32768x4x3, .f32⟩ : BufTy).Contents (Elt F) → (⟨S32768x4x3, .f32⟩ : BufTy).Contents (Elt F) → (⟨S32768x4x3, .f32⟩ : BufTy).Contents (Elt F)),
    -- the log-softmax
    TRef.nullary main_call2.cst (constant S_ .f32 0xFF800000#32),
    TRef.binary (TRef.of main_v27 : TRef sig ⟨S32768x4x3, .f32⟩) main_call2.cst main_call2.v0 (fun x v => Host.reduce FloatOps.maximumf x v reducesTo_S32768x4x3_S32768x4_d2 h_S_),
    TRef.nullary main_call2.cst_0 (constant S_ .f32 0xFF800000#32),
    TRef.unary main_call2.cst_0 main_call2.v1 (broadcastInDim S32768x4 ![] bcast_S_S32768x4),
    TRef.binary main_call2.v1 main_call2.v0 main_call2.v2 maximumf,
    TRef.unary main_call2.v2 main_call2.v3 (broadcastInDim S32768x4x1 ![0, 1] bcast_S32768x4_S32768x4x1_0_1),
    TRef.unary main_call2.v3 main_call2.v4 (broadcastInDim S32768x4x3 ![0, 1, 2] bcast_S32768x4x1_S32768x4x3_0_1_2),
    TRef.binary (TRef.of main_v27 : TRef sig ⟨S32768x4x3, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S32768x4x3_S32768x4_d2 h_S_),
    TRef.unary main_call2.v7 main_call2.v8 (broadcastInDim S32768x4x1 ![0, 1] bcast_S32768x4_S32768x4x1_0_1),
    TRef.unary main_call2.v8 main_call2.v9 Host.log,
    TRef.unary main_call2.v9 main_call2.v10 (broadcastInDim S32768x4x3 ![0, 1, 2] bcast_S32768x4x1_S32768x4x3_0_1_2),
    TRef.binary main_call2.v5 main_call2.v10 main_call2.v11 subf,
    unary main_v28 main_v29 ((extractStridedSlice S32768x4x1 ![0, 0, 0] · slices_S32768x4x3_S32768x4x1_0_0_0) : (⟨S32768x4x3, .f32⟩ : BufTy).Contents (Elt F) → (⟨S32768x4x1, .f32⟩ : BufTy).Contents (Elt F)),
    reshape main_v29 main_v30 rfl shapeCasts_S32768x4x1_S32768x4,
    unary main_v30 main_v31 (Host.negf : (⟨S32768x4, .f32⟩ : BufTy).Contents (Elt F) → (⟨S32768x4, .f32⟩ : BufTy).Contents (Elt F)),
    nullary main_cst_1 (constant S_ .f32 0x00000000#32),
    binary main_v31 main_cst_1 main_v32 ((fun x v => Host.reduceAdd x v reducesTo_S32768x4_S_d0_1 h_S_) : (⟨S32768x4, .f32⟩ : BufTy).Contents (Elt F) → (⟨S_, .f32⟩ : BufTy).Contents (Elt F) → (⟨S_, .f32⟩ : BufTy).Contents (Elt F)),
    nullary main_cst_2 (constant S_ .f32 0x47800000#32),
    binary main_v32 main_cst_2 main_v33 (Host.divf : (⟨S_, .f32⟩ : BufTy).Contents (Elt F) → (⟨S_, .f32⟩ : BufTy).Contents (Elt F) → (⟨S_, .f32⟩ : BufTy).Contents (Elt F)) ]

/-- @main is that straight line: the three functions' bodies unfold at their calls and the sequencing
    re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., reshape_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    unary_bufs_sub .., unary_bufs_sub .., unary_bufs_sub .., nary_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..,
    unary_bufs_sub .., reshape_bufs_sub .., unary_bufs_sub .., nullary_bufs_sub .., binary_bufs_sub .., nullary_bufs_sub ..,
    binary_bufs_sub ..⟩

/-! ## The fold of the line at the result and at the arguments -/

attribute [local irreducible] Host.reduce Host.reduceAdd Host.gather concatenate broadcastInDim shapeCast extractStridedSlice
  select cmpi addi andi mulf subf maximumf Host.divf Host.sqrt Host.exp Host.log Host.negf constant constantI FloatOps.dotGeneral in
set_option maxRecDepth 8192 in
set_option maxHeartbeats 800000 in
/-- The fold at the result buffer is `result` of the arguments' contents: each operation's result at its own
    buffer is its function of its operands' contents and every other buffer keeps what it held; the composed term
    is `result` by unfolding the stages (the operations themselves stay folded meanwhile). -/
theorem out_eq (V : Valuation τ sig (Elt F)) :
    after ops V (main_v33 : DevRef τ sig) = result (V (main_arg0 : DevRef τ sig)) (V (main_arg1 : DevRef τ sig)) := by
  after_results_simp
  rfl

set_option maxRecDepth 8192 in
set_option maxHeartbeats 800000 in
/-- No operation writes the first argument's buffer. -/
theorem arg0_eq (V : Valuation τ sig (Elt F)) :
    after ops V (main_arg0 : DevRef τ sig) = V (main_arg0 : DevRef τ sig) := by
  after_results_simp

set_option maxRecDepth 8192 in
set_option maxHeartbeats 800000 in
/-- No operation writes the second argument's buffer. -/
theorem arg1_eq (V : Valuation τ sig (Elt F)) :
    after ops V (main_arg1 : DevRef τ sig) = V (main_arg1 : DevRef τ sig) := by
  after_results_simp

/-! ## The run -/

set_option maxRecDepth 8192 in
/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v33).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

namespace Cert.Proof.RefClaims

open Idealize.ShloMosaic Idealize.SL.Sem

/-- The reference runs and leaves its two argument arrays as it found them: the run above, read at the arguments. -/
theorem frame : Cert.frame_ReferenceIdeal := fun m ρ _ =>
  (θ_run Cert.ReferenceIdeal.defs _ _).mono (fun _ h c => (h c).2) (Cert.ReferenceIdeal.RefRun.run (F := Ideal) m ρ)

end Cert.Proof.RefClaims

end
-- ==== Proof.ChunkLaw.lean ====
/-
  On real data every quantity of the chunked cross-entropy is a real number.

  If the rows have real entries, the sum of squares is a non-negative real, its root a real, the clamp by the positive
  word `eps` a POSITIVE real, so each scaled entry is a real quotient and each cosine a real number (`cos_real`). For
  three real cosines the doubled values, their maximum, the three exponentials, their positive sum, its logarithm and
  the final difference are real: `ce` is the coercion of the real cross-entropy `ceR` (`ce_coe`).
-/
import proofs.«165558_j6227702579662_2_alg».proof.Proof.Spec

noncomputable section

namespace Cert.NTXent

open Idealize.ShloMosaic

/-- The coercion of the reals into the extended reals commutes with a finite sum. -/
theorem coe_sum {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The coercion commutes with the maximum of two reals. -/
theorem coe_max (x y : ℝ) : ((max x y : ℝ) : EReal) = max (x : EReal) (y : EReal) :=
  EReal.coe_strictMono.monotone.map_max

/-- The three words: a positive real, 2 and 1/2. -/
theorem epsW_pos : ∃ e : ℝ, 0 < e ∧ epsW = (e : EReal) := by
  simp [epsW, Ideal.ofBits, Ideal.ieee, -EReal.coe_mul]
theorem twoW_eq : twoW = ((2 : ℝ) : EReal) := by
  simp [twoW, Ideal.ofBits, Ideal.ieee, -EReal.coe_mul]; norm_num
theorem halfW_eq : halfW = ((1 / 2 : ℝ) : EReal) := by
  simp [halfW, Ideal.ofBits, Ideal.ieee, -EReal.coe_mul]; norm_num

/-- The clamped norm of a real row is a positive real. -/
theorem nrm_real (f : Fin 256 → ℝ) : ∃ ν : ℝ, 0 < ν ∧ nrm (fun d => ((f d : ℝ) : EReal)) = (ν : EReal) := by
  obtain ⟨e, he, hw⟩ := epsW_pos
  refine ⟨max (Real.sqrt (∑ d, f d * f d)) e, lt_max_of_lt_right he, ?_⟩
  unfold nrm
  have h0 : (0 : ℝ) ≤ ∑ d, f d * f d := Finset.sum_nonneg fun d _ => mul_self_nonneg _
  simp only [← EReal.coe_mul]
  rw [coe_sum, Ideal.sqrt_coe, if_neg (not_lt.mpr h0), hw, coe_max]

/-- A scaled entry of a real row is a real number. -/
theorem unit_real (f : Fin 256 → ℝ) : ∃ g : Fin 256 → ℝ, ∀ d, unit (fun d => ((f d : ℝ) : EReal)) d = ((g d : ℝ) : EReal) := by
  obtain ⟨ν, hν, hn⟩ := nrm_real f
  refine ⟨fun d => f d * (1 / ν), fun d => ?_⟩
  unfold unit
  rw [hn, Ideal.div_coe hν.ne', ← EReal.coe_mul]

/-- The cosine of two real rows is a real number. -/
theorem cos_real (f g : Fin 256 → ℝ) :
    ∃ r : ℝ, cos (fun d => ((f d : ℝ) : EReal)) (fun d => ((g d : ℝ) : EReal)) = (r : EReal) := by
  obtain ⟨f', hf⟩ := unit_real f
  obtain ⟨g', hg⟩ := unit_real g
  refine ⟨∑ d, f' d * g' d, ?_⟩
  unfold cos
  simp only [hf, hg, ← EReal.coe_mul]
  exact coe_sum _ _

/-- The real cross-entropy of three doubled cosines, the first the label. -/
def ceR (p n0 n1 : ℝ) : ℝ :=
  (max (max (p * 2) (n0 * 2)) (n1 * 2)
    + Real.log (Real.exp (p * 2 - max (max (p * 2) (n0 * 2)) (n1 * 2))
        + Real.exp (n0 * 2 - max (max (p * 2) (n0 * 2)) (n1 * 2))
        + Real.exp (n1 * 2 - max (max (p * 2) (n0 * 2)) (n1 * 2))))
    - p * 2

/-- On real cosines the cross-entropy is the real one. -/
theorem ce_coe (p n0 n1 : ℝ) : ce (p : EReal) (n0 : EReal) (n1 : EReal) = ((ceR p n0 n1 : ℝ) : EReal) := by
  unfold ce ceR
  have hpos : ¬ (Real.exp (p * 2 - max (max (p * 2) (n0 * 2)) (n1 * 2))
        + Real.exp (n0 * 2 - max (max (p * 2) (n0 * 2)) (n1 * 2))
        + Real.exp (n1 * 2 - max (max (p * 2) (n0 * 2)) (n1 * 2))) ≤ 0 := not_le.mpr (by positivity)
  rw [twoW_eq]
  simp only [← EReal.coe_mul, ← coe_max, ← EReal.coe_sub, Ideal.exp_coe, ← EReal.coe_add]
  rw [Ideal.log_coe, if_neg hpos]
  simp only [← EReal.coe_add, ← EReal.coe_sub]

end Cert.NTXent

end
-- ==== Proof.LibHostBroadcast.lean ====
/-
  The host's broadcast_in_dim in the forms a mask over [a, b, c] is built from, each read at coordinates.

  * a scalar spread over any shape: every entry is the scalar;
  * an [a, b] matrix given a unit trailing axis, dims [0, 1] into [a, b, 1]: entry (i, j, u) is the matrix's (i, j);
  * an [a, b, 1] array spread along its trailing axis, dims [0, 1, 2] into [a, b, c]: entry (i, j, k) is the operand's
    (i, j, 0);
  * a vector [c] placed on the last axis, dims [2] into [1, 1, c]: entry (u, v, k) is the vector's k;
  * a [1, 1, c] array spread over the two leading axes, dims [0, 1, 2] into [a, b, c]: entry (i, j, k) is the
    operand's (0, 0, k).

  All are general in the extents and in the proof of the operation's side condition.
-/
import Idealize.ShloMosaic.Lib.ValueIdx
import Idealize.ShloMosaic.Lib.Pipeline.Value

namespace Idealize.ShloMosaic.ValueHostBroadcast

open Idealize.ShloMosaic Idealize.ShloMosaic.ValueIdx

variable {α : Type}

/-- A scalar broadcast over a shape reads the scalar at every index. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- An [a, b] matrix broadcast to [a, b, 1] along dims [0, 1] reads, at (i, j, u), the matrix at (i, j). -/
theorem broadcastInDim_ab_ab1_apply {a b : ℕ}
    (h : (⟨2, ![a, b]⟩ : Shape).BroadcastsInDim ⟨3, ![a, b, 1]⟩ (![0, 1] : Fin 2 → Fin 3))
    (x : (⟨2, ![a, b]⟩ : Shape).Idx → α) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An [a, b, 1] array broadcast to [a, b, c] along dims [0, 1, 2] reads, at (i, j, k), the operand at (i, j, 0). -/
theorem broadcastInDim_ab1_abc_apply {a b c : ℕ}
    (h : (⟨3, ![a, b, 1]⟩ : Shape).BroadcastsInDim ⟨3, ![a, b, c]⟩ (![0, 1, 2] : Fin 3 → Fin 3))
    (x : (⟨3, ![a, b, 1]⟩ : Shape).Idx → α) (i : Fin a) (j : Fin b) (k : Fin c) :
    broadcastInDim ⟨3, ![a, b, c]⟩ ![0, 1, 2] h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A vector [c] broadcast to [1, 1, c] along dims [2] reads, at (u, v, k), the vector at k. -/
theorem broadcastInDim_c_11c_apply {c : ℕ}
    (h : (⟨1, ![c]⟩ : Shape).BroadcastsInDim ⟨3, ![1, 1, c]⟩ (![2] : Fin 1 → Fin 3))
    (x : (⟨1, ![c]⟩ : Shape).Idx → α) (u v : Fin 1) (k : Fin c) :
    broadcastInDim ⟨3, ![1, 1, c]⟩ ![2] h x (ix3 u v k) = x (ix1 k) := by
  refine broadcastInDim_apply _ h x (ix3 u v k) (ix1 k) fun ax => ?_
  match ax with
  | ⟨0, _⟩ =>
    show k.val = if c = 1 then 0 else k.val
    split
    · have := k.isLt; omega
    · rfl

/-- A [1, 1, c] array broadcast to [a, b, c] along dims [0, 1, 2] reads, at (i, j, k), the operand at (0, 0, k). -/
theorem broadcastInDim_11c_abc_apply {a b c : ℕ}
    (h : (⟨3, ![1, 1, c]⟩ : Shape).BroadcastsInDim ⟨3, ![a, b, c]⟩ (![0, 1, 2] : Fin 3 → Fin 3))
    (x : (⟨3, ![1, 1, c]⟩ : Shape).Idx → α) (i : Fin a) (j : Fin b) (k : Fin c) :
    broadcastInDim ⟨3, ![a, b, c]⟩ ![0, 1, 2] h x (ix3 i j k) = x (ix3 (0 : Fin 1) (0 : Fin 1) k) := by
  refine broadcastInDim_apply _ h x (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Idealize.ShloMosaic.ValueHostBroadcast
-- ==== Proof.RefSoftmax.lean ====
/-
  The reference's last stages, read at an index: the log-softmax of a row of three logits and the row's loss.

  For a row `(n, c)` of three logits the reference takes their maximum (a fold of `max` from `-inf`, once more against
  `-inf`), subtracts it, exponentiates, sums the three from zero, takes the logarithm and subtracts it; the row's loss
  is minus the first entry. When the three logits are real cosines over the word 1/2 this is the real cross-entropy
  of the three doubled cosines: the maximum of three reals, three real exponentials with a positive sum, a real
  logarithm, and `-((a - m) - L) = m + L - a` on the reals.
-/
import proofs.«165558_j6227702579662_2_alg».proof.Proof.RefRun
import proofs.«165558_j6227702579662_2_alg».proof.Proof.ChunkLaw
import proofs.«165558_j6227702579662_2_alg».proof.Proof.LibHostBroadcast
import Idealize.ShloMosaic.PureOps.Ideal.Laws
import Idealize.ShloMosaic.Lib.ValueIdx
import Idealize.ShloMosaic.Lib.Pipeline.Value

set_option maxRecDepth 16384

noncomputable section
namespace Cert.ReferenceIdeal.RefSoftmax
open Cert Cert.ReferenceIdeal Cert.ReferenceIdeal.Gen Cert.ReferenceIdeal.RefRun
open Idealize.ShloMosaic Idealize.ShloMosaic.ValueIdx Idealize.ShloMosaic.ValueHostBroadcast

variable (l : FVec Ideal S32768x4x3 .f32) (n : Fin 32768) (c : Fin 4)

theorem red3 : S32768x4x3.Reduces [2] S32768x4 := by decide

theorem lift3 (k : Fin (S32768x4x3.size 2)) : red3.lift (ix2 n c) k = ix3 n c (⟨k.val, k.isLt⟩ : Fin 3) := by
  funext a; apply Fin.ext
  fin_cases a <;> rfl

/-- the row maximum from -inf -/
theorem rowmax_apply :
    Host.reduce FloatOps.maximumf l (constant S_ .f32 0xFF800000#32) reducesTo_S32768x4x3_S32768x4_d2 h_S_ (ix2 n c)
      = (Finset.univ : Finset (Fin 3)).fold max (Ideal.ofBits .f32 0xFF800000#32) (fun k => l (ix3 n c k)) := by
  refine (Host.reduce_eq_fold_single FloatOps.maximumf l _ reducesTo_S32768x4x3_S32768x4_d2 red3 h_S_ (ix2 n c)).trans ?_
  have hf : (l ∘ red3.lift (ix2 n c)) = fun k : Fin 3 => l (ix3 n c k) := funext fun k => congrArg l (lift3 n c k)
  exact congrArg (fun f => (Finset.univ : Finset (Fin 3)).fold max (Ideal.ofBits .f32 0xFF800000#32) f) hf

theorem shifted_apply (j : Fin 3) :
    shifted l (ix3 n c j) = l (ix3 n c j) - max (Ideal.ofBits .f32 0xFF800000#32)
      ((Finset.univ : Finset (Fin 3)).fold max (Ideal.ofBits .f32 0xFF800000#32) (fun k => l (ix3 n c k))) := by
  unfold shifted
  rw [subf_apply, broadcastInDim_ab1_abc_apply, broadcastInDim_ab_ab1_apply, maximumf_apply, broadcastInDim_scalar_apply, rowmax_apply]
  rfl

/-- The host's exponential and logarithm act entry by entry. -/
theorem hexp_apply {s : Shape} {φ : FTy} (a : FVec Ideal s φ) (i : s.Idx) : Host.exp a i = Ideal.exp (a i) := rfl
theorem hlog_apply {s : Shape} {φ : FTy} (a : FVec Ideal s φ) (i : s.Idx) : Host.log a i = Ideal.log (a i) := rfl

/-- A host sum over the last axis of three, from the zero word. -/
theorem sum3_apply (e : FVec Ideal S32768x4x3 .f32) :
    Host.reduceAdd e (constant S_ .f32 0x00000000#32) reducesTo_S32768x4x3_S32768x4_d2 h_S_ (ix2 n c)
      = Ideal.ofBits .f32 0x00000000#32 + ∑ k : Fin 3, e (ix3 n c k) := by
  show Ideal.hostReduceAdd reducesTo_S32768x4x3_S32768x4_d2 e (Ideal.ofBits .f32 0x00000000#32) (ix2 n c) = _
  rw [Ideal.hostReduceAdd_single reducesTo_S32768x4x3_S32768x4_d2 red3]
  exact congrArg (Ideal.ofBits .f32 0x00000000#32 + ·) (Finset.sum_congr rfl fun k _ => congrArg e (lift3 n c k))

/-- The log-softmax at an entry: the shifted logit minus the logarithm of the row's sum of exponentials. -/
theorem lsm_apply (j : Fin 3) :
    lsm l (ix3 n c j) = shifted l (ix3 n c j)
      - Ideal.log (Ideal.ofBits .f32 0x00000000#32 + ∑ k : Fin 3, Ideal.exp (shifted l (ix3 n c k))) := by
  unfold lsm
  rw [subf_apply, broadcastInDim_ab1_abc_apply, hlog_apply, broadcastInDim_ab_ab1_apply, sum3_apply]
  simp only [hexp_apply]

/-- The row's loss: minus the log-softmax's first entry. -/
theorem loss_apply (x0 x1 : FVec Ideal S65536x256 .f32) :
    RefRun.loss x0 x1 (ix2 n c) = -(lsm (logits x0 x1) (ix3 n c (0 : Fin 3))) := by
  unfold RefRun.loss
  show -(shapeCast S32768x4 _ shapeCasts_S32768x4x1_S32768x4 (ix2 n c)) = _
  rw [shapeCast_apply _ shapeCasts_S32768x4x1_S32768x4 (ix2 n c) (ix3 n c (0 : Fin 1)) (by
      rw [Shape.rowMajor_val_two, Shape.rowMajor_val_three]
      show (n.val * 4 + c.val) * 1 + 0 = n.val * 4 + c.val
      omega),
    extractStridedSlice_apply ![0, 0, 0] _ slices_S32768x4x3_S32768x4x1_0_0_0 (ix3 n c (0 : Fin 1)) (ix3 n c (0 : Fin 3))
      (by intro a; fin_cases a <;> simp)]

/-- A fold of `max` over three indices, written out. -/
theorem fold3 (b : EReal) (f : Fin 3 → EReal) :
    (Finset.univ : Finset (Fin 3)).fold max b f = max (f 0) (max (f 1) (max (f 2) b)) := by
  rw [show (Finset.univ : Finset (Fin 3)) = insert 0 (insert 1 {2}) from by decide,
    Finset.fold_insert (by decide), Finset.fold_insert (by decide), Finset.fold_singleton]

/-- The word of `-inf` is the bottom of the extended reals; the zero word is zero. -/
theorem negInf_eq : Ideal.ofBits .f32 0xFF800000#32 = ⊥ := by simp [Ideal.ofBits, Ideal.ieee]

/-- ON REAL COSINES the reference's row loss is the cross-entropy of the specification. -/
theorem loss_real (s : Fin 3 → ℝ) (hl : ∀ j, l (ix3 n c j) = Ideal.div ((s j : ℝ) : EReal) NTXent.halfW) :
    -(lsm l (ix3 n c (0 : Fin 3))) = NTXent.ce ((s 0 : ℝ) : EReal) ((s 1 : ℝ) : EReal) ((s 2 : ℝ) : EReal) := by
  have hL : ∀ j, l (ix3 n c j) = ((s j * 2 : ℝ) : EReal) := fun j => by
    rw [hl j, NTXent.halfW_eq, Ideal.div_coe (by norm_num), ← EReal.coe_mul]; norm_num
  have hM : max (Ideal.ofBits .f32 0xFF800000#32)
      ((Finset.univ : Finset (Fin 3)).fold max (Ideal.ofBits .f32 0xFF800000#32) (fun k => ((s k * 2 : ℝ) : EReal)))
      = ((max (max (s 0 * 2) (s 1 * 2)) (s 2 * 2) : ℝ) : EReal) := by
    rw [fold3, negInf_eq, max_bot_right, max_bot_left, ← NTXent.coe_max, ← NTXent.coe_max, max_assoc]
  rw [NTXent.ce_coe, lsm_apply]
  simp only [shifted_apply, hL, hM, Fin.sum_univ_three, Ideal.ofBits_zero_f32, zero_add, ← EReal.coe_sub, Ideal.exp_coe, ← EReal.coe_add]
  rw [Ideal.log_coe, if_neg (not_le.mpr (by positivity)), ← EReal.coe_sub, ← EReal.coe_neg]
  unfold NTXent.ceR
  congr 1
  ring

end Cert.ReferenceIdeal.RefSoftmax
end
-- ==== Proof.RefLogits.lean ====
/-
  The reference's logits, read at an index.

  At the ideal values every stage of the reference's value up to the logits is an explicit function of the two
  argument arrays' entries. Chunk `n` gathers four rows of 256 features (two of the second argument, then two of the
  first); each row is divided by its Euclidean norm clamped below by a small word; the chunk's 4 x 4 matrix holds
  the inner products of the scaled rows, that is, the cosines of the rows pair by pair. Row `c`'s logits are three
  entries of its row of that matrix, each over the temperature word: the positive at column `c + 2 (mod 4)`, cut out
  by four slices, and the two negatives at the columns the literal table `[[1,3],[0,2],[1,3],[0,2]]` names, gathered
  along the last axis (every table entry lies in `[0, 3]`, so the gather's wrap of negative indices keeps each entry
  and its range test selects the gathered value everywhere).

  Each lemma reads one stage at an index given by its coordinates: a reshape by the row-major position, a
  concatenation by the piece the coordinate falls in, a broadcast by the coordinates it keeps, the sum of squares and
  the matrix product as finite sums over the 256 features, the gather by its operand index computed axis by axis.
-/
import proofs.«165558_j6227702579662_2_alg».proof.Proof.RefRun
import proofs.«165558_j6227702579662_2_alg».proof.Proof.Spec
import Idealize.ShloMosaic.Lib.ValueIdx
import Idealize.ShloMosaic.Lib.Pipeline.Value
import Idealize.ShloMosaic.PureOps.Ideal.Laws

noncomputable section

namespace Cert.ReferenceIdeal.RefLogits

open Cert.ReferenceIdeal Cert.ReferenceIdeal.Gen Cert.ReferenceIdeal.RefRun Idealize.ShloMosaic Idealize.ShloMosaic.ValueIdx

/-- An argument array at the ideal values. -/
abbrev Arr : Type := FVec Ideal S65536x256 .f32

/-! ## The elementwise host operations and a scalar's broadcast, read at an index -/

section Elementwise
variable {s : Shape} {φ : FTy}

theorem hsqrt_apply (a : FVec Ideal s φ) (i : s.Idx) : Host.sqrt a i = Ideal.sqrt (a i) := rfl
theorem hexp_apply (a : FVec Ideal s φ) (i : s.Idx) : Host.exp a i = Ideal.exp (a i) := rfl
theorem hlog_apply (a : FVec Ideal s φ) (i : s.Idx) : Host.log a i = Ideal.log (a i) := rfl
theorem hnegf_apply (a : FVec Ideal s φ) (i : s.Idx) : Host.negf a i = -(a i) := rfl
theorem hdivf_apply (a b : FVec Ideal s φ) (i : s.Idx) : Host.divf a b i = Ideal.div (a i) (b i) := rfl

/-- A rank-zero value broadcast to any shape is its one element everywhere. -/
theorem bcast0_apply {α : Type} (t : Shape) (h : S_.BroadcastsInDim t (![] : Fin 0 → Fin t.rank)) (x : S_.Idx → α) (j : t.Idx) :
    broadcastInDim t ![] h x j = x ix0 :=
  congrArg x (funext fun a => a.elim0)

end Elementwise

/-! ## The normalised rows -/

/-- A chunk's row `c`, feature `d`: a row of the second argument for `c < 2`, of the first otherwise. -/
theorem reps_apply (x0 x1 : Arr) (n : Fin 32768) (c : Fin 4) (d : Fin 256) :
    reps x0 x1 (ix3 n c d) = NTXent.rep x0 x1 n c d := by
  unfold NTXent.rep NTXent.rowOf reps
  by_cases h : c.val < 2
  · rw [dif_pos h]
    refine (concatenate_pair_apply_left (t := S32768x4x256) (s₁ := S32768x2x256) (s₂ := S32768x2x256) 1 _ _ _ (ix3 n c d) rfl (ix3 n (⟨c.val, h⟩ : Fin 2) d) ?_).trans ?_
    · intro b; match b with
      | ⟨0, _⟩ => rfl
      | ⟨1, _⟩ => rfl
      | ⟨2, _⟩ => rfl
    · refine shapeCast_apply x1 _ _ (ix2 (⟨2 * n.val + c.val, by omega⟩ : Fin 65536) d) ?_
      rw [Shape.rowMajor_val_two, Shape.rowMajor_val_three]
      show (2 * n.val + c.val) * 256 + d.val = (n.val * 2 + c.val) * 256 + d.val
      omega
  · rw [dif_neg h]
    have hc : c.val - 2 < 2 := by omega
    refine (concatenate_pair_apply_right (t := S32768x4x256) (s₁ := S32768x2x256) (s₂ := S32768x2x256) 1 _ _ _ (ix3 n c d) rfl rfl (ix3 n (⟨c.val - 2, hc⟩ : Fin 2) d) ?_ ?_).trans ?_
    · intro b hb; match b with
      | ⟨0, _⟩ => rfl
      | ⟨1, _⟩ => exact absurd rfl hb
      | ⟨2, _⟩ => rfl
    · show c.val - 2 + 2 = c.val
      omega
    · refine shapeCast_apply x0 _ _ (ix2 (⟨2 * n.val + (c.val - 2), by omega⟩ : Fin 65536) d) ?_
      rw [Shape.rowMajor_val_two, Shape.rowMajor_val_three]
      show (2 * n.val + (c.val - 2)) * 256 + d.val = (n.val * 2 + (c.val - 2)) * 256 + d.val
      omega

/-- The reduction over the features, as a fact about the two shapes. -/
theorem red256 : S32768x4x256.Reduces [2] S32768x4 := by decide

/-- A row's sum of squares, from the zero word. -/
theorem ssq_apply (x0 x1 : Arr) (n : Fin 32768) (c : Fin 4) (z : Fin 1) :
    ssq x0 x1 (ix3 n c z)
      = Ideal.ofBits .f32 0x00000000#32 + ∑ d : Fin 256, NTXent.rep x0 x1 n c d * NTXent.rep x0 x1 n c d := by
  unfold ssq
  refine (broadcastInDim_apply _ _ _ (ix3 n c z) (ix2 n c) ?_).trans ?_
  · intro a; match a with
    | ⟨0, _⟩ => rfl
    | ⟨1, _⟩ => rfl
  · show Ideal.hostReduceAdd reducesTo_S32768x4x256_S32768x4_d2 (mulf (reps x0 x1) (reps x0 x1))
        (Ideal.ofBits .f32 0x00000000#32) (ix2 n c) = _
    rw [Ideal.hostReduceAdd_single reducesTo_S32768x4x256_S32768x4_d2 red256]
    show Ideal.ofBits .f32 0x00000000#32 + ∑ d : Fin 256, mulf (reps x0 x1) (reps x0 x1) (red256.lift (ix2 n c) d) = _
    refine congrArg (Ideal.ofBits .f32 0x00000000#32 + ·) (Finset.sum_congr rfl fun d _ => ?_)
    have hl : red256.lift (ix2 n c) d = ix3 n c d := by
      funext a; apply Fin.ext; match a with
      | ⟨0, _⟩ => rfl
      | ⟨1, _⟩ => rfl
      | ⟨2, _⟩ => rfl
    rw [hl]
    rw [mulf_apply, reps_apply]

/-- A row's clamped norm. -/
theorem nrm_apply (x0 x1 : Arr) (n : Fin 32768) (c : Fin 4) (z : Fin 1) :
    RefRun.nrm x0 x1 (ix3 n c z) = NTXent.nrm (NTXent.rep x0 x1 n c) := by
  unfold RefRun.nrm NTXent.nrm
  rw [maximumf_apply, hsqrt_apply, ssq_apply, bcast0_apply, constant_apply, Ideal.ofBits_zero_f32, zero_add]

/-- A normalised row's feature. -/
theorem repsN_apply (x0 x1 : Arr) (n : Fin 32768) (c : Fin 4) (d : Fin 256) :
    repsN x0 x1 (ix3 n c d) = NTXent.unit (NTXent.rep x0 x1 n c) d := by
  unfold repsN NTXent.unit
  rw [hdivf_apply, reps_apply, broadcastInDim_apply _ _ _ (ix3 n c d) (ix3 n c (0 : Fin 1)) (by
    intro a; match a with
    | ⟨0, _⟩ => rfl
    | ⟨1, _⟩ => rfl
    | ⟨2, _⟩ => rfl), nrm_apply]

/-! ## The matrix of inner products -/

local notation "DD" => dot_S32768x4x256_S32768x4x256_S32768x4x4_2_2_1_1_0_0

/-- The inner product of two normalised rows of a chunk. -/
theorem sim_apply (x0 x1 : Arr) (n : Fin 32768) (c k : Fin 4) :
    sim x0 x1 (ix3 n c k) = NTXent.cos (NTXent.rep x0 x1 n c) (NTXent.rep x0 x1 n k) := by
  unfold sim NTXent.cos
  show FloatOps.dotGeneral DD none .single (repsN x0 x1) (repsN x0 x1) (ix3 n c k) = _
  rw [Ideal.dotGeneral_apply, ← Equiv.sum_comp (contrEquiv1 DD 256 rfl rfl).symm]
  refine Finset.sum_congr rfl fun d _ => ?_
  have c3 := contrEquiv1_symm_val DD 256 rfl rfl d
  have l3 : DotDims.lhsIdx DD (ix3 n c k) ((contrEquiv1 DD 256 rfl rfl).symm d) = ix3 n c d := by
    funext ax; apply Fin.ext
    match ax with
    | ⟨0, _⟩ => simp [DotDims.lhsIdx, dot_S32768x4x256_S32768x4x256_S32768x4x4_2_2_1_1_0_0]; rfl
    | ⟨1, _⟩ => simp [DotDims.lhsIdx, dot_S32768x4x256_S32768x4x256_S32768x4x4_2_2_1_1_0_0]; rfl
    | ⟨2, _⟩ => simp [DotDims.lhsIdx, dot_S32768x4x256_S32768x4x256_S32768x4x4_2_2_1_1_0_0]; exact c3
  have r3 : DotDims.rhsIdx DD (ix3 n c k) ((contrEquiv1 DD 256 rfl rfl).symm d) = ix3 n k d := by
    funext ax; apply Fin.ext
    match ax with
    | ⟨0, _⟩ => simp [DotDims.rhsIdx, dot_S32768x4x256_S32768x4x256_S32768x4x4_2_2_1_1_0_0]; rfl
    | ⟨1, _⟩ => simp [DotDims.rhsIdx, dot_S32768x4x256_S32768x4x256_S32768x4x4_2_2_1_1_0_0]; rfl
    | ⟨2, _⟩ => simp [DotDims.rhsIdx, dot_S32768x4x256_S32768x4x256_S32768x4x4_2_2_1_1_0_0]; exact c3
  rw [l3, r3, repsN_apply, repsN_apply]

/-! ## The positives -/

/-- One entry of every chunk's matrix, as a column, read at a chunk. -/
theorem entry_apply (r k : Fin 4) (h : S32768x4x4.Slices ![0, r.val, k.val] S32768x1x1) (s : FVec Ideal S32768x4x4 .f32)
    (n : Fin 32768) (z : Fin 1) : entry ![0, r.val, k.val] h s (ix2 n z) = s (ix3 n r k) := by
  unfold entry
  refine (broadcastInDim_apply _ _ _ (ix2 n z) (ix1 n) ?_).trans ?_
  · intro a; match a with
    | ⟨0, _⟩ => rfl
  · refine (shapeCast_apply _ _ (ix1 n) (ix3 n (0 : Fin 1) (0 : Fin 1)) ?_).trans ?_
    · rw [Shape.rowMajor_val_one, Shape.rowMajor_val_three]
      show (n.val * 1 + 0) * 1 + 0 = n.val
      omega
    · refine extractStridedSlice_apply _ _ _ _ (ix3 n r k) ?_
      intro a; match a with
      | ⟨0, _⟩ => show n.val = 0 + n.val; omega
      | ⟨1, _⟩ => show r.val = r.val + 0; omega
      | ⟨2, _⟩ => show k.val = k.val + 0; omega

/-- Row `c`'s positive: the matrix entry at its partner row. -/
theorem pos_apply (x0 x1 : Arr) (n : Fin 32768) (c : Fin 4) :
    RefRun.pos x0 x1 (ix2 n c) = sim x0 x1 (ix3 n c (NTXent.pos c)) := by
  unfold RefRun.pos
  have hi : ∀ (b : Fin S32768x1.rank), b.cast (rfl : S32768x1.rank = S32768x4.rank) ≠ (1 : Fin 2) →
      (ix2 n (0 : Fin 1) b).val = (ix2 n c (b.cast (rfl : S32768x1.rank = S32768x4.rank))).val := by
    intro b hb; match b with
    | ⟨0, _⟩ => rfl
    | ⟨1, _⟩ => exact absurd rfl hb
  match c with
  | ⟨0, _⟩ =>
    exact (concatenate_apply_piece (t := S32768x4) 1 _ _ (ix2 n 0) 0 (by simp) S32768x1 _ rfl rfl 0 rfl
      (ix2 n (0 : Fin 1)) hi rfl).trans (entry_apply 0 2 _ _ n 0)
  | ⟨1, _⟩ =>
    exact (concatenate_apply_piece (t := S32768x4) 1 _ _ (ix2 n 1) 1 (by simp) S32768x1 _ rfl rfl 1 rfl
      (ix2 n (0 : Fin 1)) hi rfl).trans (entry_apply 1 3 _ _ n 0)
  | ⟨2, _⟩ =>
    exact (concatenate_apply_piece (t := S32768x4) 1 _ _ (ix2 n 2) 2 (by simp) S32768x1 _ rfl rfl 2 rfl
      (ix2 n (0 : Fin 1)) hi rfl).trans (entry_apply 2 0 _ _ n 0)
  | ⟨3, _⟩ =>
    exact (concatenate_apply_piece (t := S32768x4) 1 _ _ (ix2 n 3) 3 (by simp) S32768x1 _ rfl rfl 3 rfl
      (ix2 n (0 : Fin 1)) hi rfl).trans (entry_apply 3 1 _ _ n 0)

/-! ## The negatives: the literal index table, its range test, the gather -/

/-- Row `c`'s two negatives, as the index table lists them. -/
def ncol (c : Fin 4) (e : Fin 2) : Fin 4 := if e = 0 then NTXent.neg0 c else NTXent.neg1 c

/-- The start indices are the table's entries (none is negative, so none is wrapped). -/
theorem idx_apply : ∀ (c : Fin 4) (e : Fin 2), idx (ix3 c e (0 : Fin 1)) = BitVec.ofNat 32 (ncol c e).val := by decide

/-- Every start index is in range. -/
theorem mask_apply : ∀ (c : Fin 4) (e : Fin 2), mask (ix2 c e) = 1#1 := by decide

local notation "GG" => gather_S32768x4x4_S4x2x1_S32768x4x2_0_2_1_0_2_2_3276811

/-- The operand index the gather reads at `(n, c, e)`: the same chunk and row, the column the table names. -/
theorem gather_idx (n : Fin 32768) (c : Fin 4) (e : Fin 2) :
    GatherDims.operandIdx GG (ix3 n c e) idx = ix3 n c (ncol c e) := by
  funext a; apply Fin.ext
  show GatherDims.start GG (ix3 n c e) idx a + GatherDims.batchCoord GG (ix3 n c e) a
      + GatherDims.offCoord GG (ix3 n c e) a = _
  match a with
  | ⟨0, _⟩ => exact (show _ = 0 + 0 + n.val from rfl).trans (show 0 + 0 + n.val = n.val by omega)
  | ⟨1, _⟩ => exact (show _ = 0 + c.val + 0 from rfl).trans (show 0 + c.val + 0 = c.val by omega)
  | ⟨2, _⟩ =>
    have hsi : GatherDims.siIdx GG (ix3 n c e) ⟨0, by decide⟩ = ix3 c e (0 : Fin 1) := by
      funext b; apply Fin.ext; match b with
      | ⟨0, _⟩ => rfl
      | ⟨1, _⟩ => rfl
      | ⟨2, _⟩ => rfl
    have hst : GatherDims.start GG (ix3 n c e) idx ⟨2, by decide⟩
        = min (idx (GatherDims.siIdx GG (ix3 n c e) ⟨0, by decide⟩)).toInt.toNat 3 := rfl
    have hv : ∀ (c : Fin 4) (e : Fin 2), min (BitVec.ofNat 32 (ncol c e).val).toInt.toNat 3 = (ncol c e).val := by decide
    show GatherDims.start GG (ix3 n c e) idx ⟨2, by decide⟩ + GatherDims.batchCoord GG (ix3 n c e) ⟨2, by decide⟩
      + GatherDims.offCoord GG (ix3 n c e) ⟨2, by decide⟩ = (ncol c e).val
    rw [hst, hsi, idx_apply, hv]
    rfl

/-- Row `c`'s negative `e`: the matrix entry at the column the table names. -/
theorem negs_apply (x0 x1 : Arr) (n : Fin 32768) (c : Fin 4) (e : Fin 2) :
    negs x0 x1 (ix3 n c e) = sim x0 x1 (ix3 n c (ncol c e)) := by
  unfold negs
  rw [select_apply, broadcastInDim_apply _ _ _ (ix3 n c e) (ix2 c e) (by
    intro a; match a with
    | ⟨0, _⟩ => rfl
    | ⟨1, _⟩ => rfl), mask_apply, select_one]
  show sim x0 x1 (GatherDims.operandIdx GG (ix3 n c e) idx) = _
  rw [gather_idx]

/-! ## The logits -/

/-- The three columns row `c`'s logits read: its positive partner, then its two negatives. -/
def col (c : Fin 4) (j : Fin 3) : Fin 4 := ![NTXent.pos c, NTXent.neg0 c, NTXent.neg1 c] j

/-- Logit `j` of row `c` of chunk `n`: the cosine of the row with row `col c j`, over the temperature word. -/
theorem logits_apply (x0 x1 : Arr) (n : Fin 32768) (c : Fin 4) (j : Fin 3) :
    RefRun.logits (F := Ideal) x0 x1 (ix3 n c j)
      = Ideal.div (NTXent.cos (NTXent.rep x0 x1 n c) (NTXent.rep x0 x1 n (col c j))) NTXent.halfW := by
  unfold RefRun.logits
  rw [hdivf_apply, bcast0_apply, constant_apply]
  refine congrArg (Ideal.div · (Ideal.ofBits .f32 0x3F000000#32)) ?_
  match j with
  | ⟨0, _⟩ =>
    refine (concatenate_pair_apply_left (t := S32768x4x3) (s₁ := S32768x4x1) (s₂ := S32768x4x2) 2 _ _ _
      (ix3 n c 0) rfl (ix3 n c (0 : Fin 1)) ?_).trans ?_
    · intro b; match b with
      | ⟨0, _⟩ => rfl
      | ⟨1, _⟩ => rfl
      | ⟨2, _⟩ => rfl
    · rw [broadcastInDim_apply _ _ _ (ix3 n c (0 : Fin 1)) (ix2 n c) (by
        intro a; match a with
        | ⟨0, _⟩ => rfl
        | ⟨1, _⟩ => rfl), pos_apply, sim_apply]
      rfl
  | ⟨1, _⟩ =>
    refine (concatenate_pair_apply_right (t := S32768x4x3) (s₁ := S32768x4x1) (s₂ := S32768x4x2) 2 _ _ _
      (ix3 n c 1) rfl rfl (ix3 n c (0 : Fin 2)) ?_ rfl).trans ?_
    · intro b hb; match b with
      | ⟨0, _⟩ => rfl
      | ⟨1, _⟩ => rfl
      | ⟨2, _⟩ => exact absurd rfl hb
    · rw [negs_apply, sim_apply]
      rfl
  | ⟨2, _⟩ =>
    refine (concatenate_pair_apply_right (t := S32768x4x3) (s₁ := S32768x4x1) (s₂ := S32768x4x2) 2 _ _ _
      (ix3 n c 2) rfl rfl (ix3 n c (1 : Fin 2)) ?_ rfl).trans ?_
    · intro b hb; match b with
      | ⟨0, _⟩ => rfl
      | ⟨1, _⟩ => rfl
      | ⟨2, _⟩ => exact absurd rfl hb
    · rw [negs_apply, sim_apply]
      rfl

end Cert.ReferenceIdeal.RefLogits

end
-- ==== Proof.RefResult.lean ====
/-
  The reference's result, read at its one index: the sum of all row losses over the word 65536.

  The last two operations of the reference add up the [32768, 4] array of row losses from the zero word and divide
  the sum by a constant. At the ideal values the host's sum into a rank-zero result is the initial value plus the
  sum over every index of the operand; the zero word is the real zero, and a sum over the index set of a
  [32768, 4] array is the double sum over chunks and rows.
-/
import proofs.«165558_j6227702579662_2_alg».proof.Proof.RefLogits

noncomputable section

namespace Cert.ReferenceIdeal.RefResult

open Cert.ReferenceIdeal Cert.ReferenceIdeal.Gen Cert.ReferenceIdeal.RefRun Cert.ReferenceIdeal.RefLogits Idealize.ShloMosaic Idealize.ShloMosaic.ValueIdx

/-- The result is, at its one index, the double sum of the row losses divided by the word 65536. -/
theorem result_apply (x0 x1 : Arr) :
    RefRun.result (F := Ideal) x0 x1
      = fun _ => Ideal.div (∑ n : Fin 32768, ∑ c : Fin 4, RefRun.loss (F := Ideal) x0 x1 (ix2 n c))
          (Ideal.ofBits .f32 0x47800000#32) := by
  funext i
  unfold RefRun.result
  rw [hdivf_apply, constant_apply]
  show Ideal.div (Ideal.hostReduceAdd reducesTo_S32768x4_S_d0_1 (RefRun.loss x0 x1)
      (Ideal.ofBits .f32 0x00000000#32) i) _ = _
  rw [Ideal.hostReduceAdd_total reducesTo_S32768x4_S_d0_1 (fun b => b.elim0), Ideal.ofBits_zero_f32, zero_add,
    sum_idx2]

end Cert.ReferenceIdeal.RefResult

end
-- ==== Proof.RefBridge.lean ====
/-
  Under the precondition the reference's row losses are the specification's.

  Real inputs give real rows, real rows real cosines; the reference's three logits of a row are those cosines over the
  word 1/2, and on real cosines its minus-log-softmax is the cross-entropy of the specification. So the reference's sum
  of row losses is `total`.
-/
import proofs.«165558_j6227702579662_2_alg».proof.Proof.RefSoftmax
import proofs.«165558_j6227702579662_2_alg».proof.Proof.RefLogits
import proofs.«165558_j6227702579662_2_alg».proof.Proof.RefResult
import proofs.«165558_j6227702579662_2_alg».proof.Proof.ChunkLaw

set_option maxRecDepth 16384

noncomputable section

namespace Cert.ReferenceIdeal.RefBridge

open Cert Cert.ReferenceIdeal Cert.ReferenceIdeal.RefRun
open Idealize.ShloMosaic Idealize.ShloMosaic.ValueIdx

variable (x0 x1 : NTXent.Arr) (h0 : ∀ i, ∃ r : ℝ, x0 i = (r : EReal)) (h1 : ∀ i, ∃ r : ℝ, x1 i = (r : EReal))

include h0 h1 in
/-- A chunk's rows have real entries. -/
theorem rep_real (n : Fin 32768) (c : Fin 4) : ∃ f : Fin 256 → ℝ, NTXent.rep x0 x1 n c = fun d => ((f d : ℝ) : EReal) := by
  choose f0 hf0 using h0
  choose f1 hf1 using h1
  unfold NTXent.rep NTXent.rowOf
  split
  · exact ⟨_, funext fun d => hf1 _⟩
  · exact ⟨_, funext fun d => hf0 _⟩

include h0 h1 in
/-- The cosine of two rows of a chunk is a real number. -/
theorem cos_rep_real (n : Fin 32768) (c k : Fin 4) :
    ∃ r : ℝ, NTXent.cos (NTXent.rep x0 x1 n c) (NTXent.rep x0 x1 n k) = (r : EReal) := by
  obtain ⟨f, hf⟩ := rep_real x0 x1 h0 h1 n c
  obtain ⟨g, hg⟩ := rep_real x0 x1 h0 h1 n k
  rw [hf, hg]
  exact NTXent.cos_real f g

include h0 h1 in
/-- The reference's loss of row `c` of chunk `n` is the specification's. -/
theorem loss_eq (n : Fin 32768) (c : Fin 4) : RefRun.loss (F := Ideal) x0 x1 (ix2 n c) = NTXent.loss x0 x1 n c := by
  choose s hs using fun j : Fin 3 => cos_rep_real x0 x1 h0 h1 n c (RefLogits.col c j)
  rw [RefSoftmax.loss_apply, RefSoftmax.loss_real (logits x0 x1) n c s (fun j => by rw [RefLogits.logits_apply, hs j])]
  unfold NTXent.loss
  rw [← hs 0, ← hs 1, ← hs 2]
  rfl

include h0 h1 in
/-- The reference's sum of row losses is the specification's. -/
theorem total_eq : (∑ n : Fin 32768, ∑ c : Fin 4, RefRun.loss (F := Ideal) x0 x1 (ix2 n c)) = NTXent.total x0 x1 :=
  Finset.sum_congr rfl fun n _ => Finset.sum_congr rfl fun c _ => loss_eq x0 x1 h0 h1 n c

end Cert.ReferenceIdeal.RefBridge

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  Under the precondition every entry of the two inputs is a real number.

  The precondition is the conjunction of two tests, one per input: `all (|x| < +inf)`. Its value 1 gives each test's
  value 1, a reduction by `and` that is 1 has a 1 at every entry, and an entry whose absolute value is below `+inf` on
  the extended reals is neither infinity.
-/
import proofs.«165558_j6227702579662_2_alg».proof.Pre_finite_inputs
import proofs.«165558_j6227702579662_2_alg».proof.Proof.Gen.Pre_finite_inputs
import proofs.«165558_j6227702579662_2_alg».proof.Proof.LibFiniteEntry
import Idealize.ShloMosaic.Lib.ReduceAll
import Idealize.ShloMosaic.Lib.Affine
import Idealize.ShloMosaic.Lib.ValueIdx

noncomputable section

namespace Cert.Proof.Finite

open Idealize.ShloMosaic Cert.Lib.FiniteEntry Cert.Pre_finite_inputs Cert.Pre_finite_inputs.Gen

/-- The two inputs' entries are real numbers wherever the precondition's value is 1. -/
theorem entries_real (x0 x1 : FVec Ideal S65536x256 .f32) (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  have h1 := IntOp.andi_eq_one.mp h0
  exact ⟨fun i => entry_real _ x0 i (Host.reduce_andi_all _ _ _ _ _ h1.1 i),
    fun i => entry_real _ x1 i (Host.reduce_andi_all _ _ _ _ _ h1.2 i)⟩

end Cert.Proof.Finite

end
-- ==== Proof.lean ====
/-
  The kernel and the reference compute one number: the chunked contrastive cross-entropy of the two inputs.

  Both programs cut the two [65536, 256] inputs into 32768 chunks of four rows, scale each row by its Euclidean norm
  clamped below by 1e-8, take the cosines of the rows of a chunk, and for each row the cross-entropy at temperature
  1/2 of its positive partner against its two negatives; the result is the sum of the 131072 row losses over 65536
  (Proof/Spec.lean). The kernel walks a 2 x 8 grid of blocks of 2048 chunks, computes the six distinct cosines of a
  chunk once each, adds a block's losses into an accumulator carried along a row of the grid, writes the row's tile out
  at its last point, and the host adds the two tiles' first entries (Proof/KBody.lean: the run; Proof/KPayload.lean,
  Proof/KBlocks.lean, Proof/KAcc.lean, Proof/KValue.lean: its value). The reference builds all sixteen cosines of a
  chunk by a batched product, picks positives and negatives by slices and a gather, and takes minus the log-softmax's
  first entry (Proof/RefRun.lean: the run; Proof/RefLogits.lean, Proof/RefSoftmax.lean, Proof/RefResult.lean: its
  value). The two agree term by term because the cosine is symmetric, addition on the extended reals is commutative
  and associative, and — the one place the precondition is used — on REAL cosines `m + log Σ - a` and
  `-((a - m) - log Σ)` are one real number (Proof/ChunkLaw.lean, Proof/RefBridge.lean, Proof/Finite.lean).
-/
import proofs.«165558_j6227702579662_2_alg».proof.Defs
import proofs.«165558_j6227702579662_2_alg».proof.Proof.Gen.Kernel
import proofs.«165558_j6227702579662_2_alg».proof.Proof.Gen.KernelIdeal
import proofs.«165558_j6227702579662_2_alg».proof.Proof.Gen.ReferenceIdeal
import proofs.«165558_j6227702579662_2_alg».proof.Proof.Gen.Pre_finite_inputs
import proofs.«165558_j6227702579662_2_alg».proof.Proof.KFrame
import proofs.«165558_j6227702579662_2_alg».proof.Proof.KValue
import proofs.«165558_j6227702579662_2_alg».proof.Proof.RefRun
import proofs.«165558_j6227702579662_2_alg».proof.Proof.RefBridge
import proofs.«165558_j6227702579662_2_alg».proof.Proof.Finite
import Idealize.ShloMosaic.Adequacy
import Idealize.ShloMosaic.Init

noncomputable section

namespace Cert.Proof

open Idealize.ShloMosaic Idealize.SL.Sem

/-- From memories that agree on the two inputs, finite by the precondition, both programs end with the sum of all row
    losses over the word 65536 in their result, and their inputs as they found them. -/
theorem algebraic : Cert.algebraic_KernelIdeal_ReferenceIdeal := by
  intro m ρ m' ρ' hpre hagree
  refine ⟨fun c => fun _ => Ideal.div (NTXent.total (Cert.KernelIdeal.KBlocks.zi m c) (Cert.KernelIdeal.KBlocks.zj m c))
      (Ideal.ofBits .f32 0x47800000#32), ?_, ?_⟩
  · exact (θ_run Cert.KernelIdeal.defs _ _).mono
      (fun _ h c => ⟨(h c).1.trans (Cert.KernelIdeal.KValue.result_eq m c), (h c).2⟩)
      (Cert.KernelIdeal.KValue.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨r0, r1⟩ := Cert.Proof.Finite.entries_real _ _ (hpre c)
    rw [Cert.ReferenceIdeal.RefResult.result_apply, (hagree c).1, (hagree c).2,
      Cert.ReferenceIdeal.RefBridge.total_eq _ _ r0 r1]
    rfl

theorem claim : Cert.Claim :=
  ⟨Cert.Kernel.Gen.facts, Cert.KernelIdeal.Gen.facts, Cert.ReferenceIdeal.Gen.facts, Cert.Pre_finite_inputs.Gen.facts,
    KClaims.frame_k, KClaims.frame_ki, RefClaims.frame, trivial, algebraic⟩

end Cert.Proof

end
